-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S4x512x512x64 : Shape := ⟨4, ![4, 512, 512, 64]⟩
abbrev S4x512x512x1 : Shape := ⟨4, ![4, 512, 512, 1]⟩
abbrev S128x128 : Shape := ⟨2, ![128, 128]⟩
abbrev S128x64 : Shape := ⟨2, ![128, 64]⟩
abbrev S128 : Shape := ⟨1, ![128]⟩
abbrev S128x384 : Shape := ⟨2, ![128, 384]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S4x512x512x64 : S_.BroadcastsInDim S4x512x512x64 (![] : Fin 0 → Fin S4x512x512x64.rank)
  reducesTo_S4x512x512x64_S_d0_1_2_3 : S4x512x512x64.ReducesTo [0, 1, 2, 3] S_
  bcast_S_S4x512x512x1 : S_.BroadcastsInDim S4x512x512x1 (![] : Fin 0 → Fin S4x512x512x1.rank)
  reducesTo_S4x512x512x1_S_d0_1_2_3 : S4x512x512x1.ReducesTo [0, 1, 2, 3] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x64 .f32) (main_arg5 : FVec F S128 .f32) (main_arg6 : FVec F S128x384 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x384 .f32 := Host.absf main_arg6
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg7 main_v33

def fn {F : FTy → Type} [FloatOps F] (main_arg0 : FVec F S4x512x128 .f32) (main_arg1 : FVec F S4x512x512x64 .f32) (main_arg2 : FVec F S4x512x512x1 .f32) (main_arg3 : FVec F S128x128 .f32) (main_arg4 : FVec F S128x64 .f32) (main_arg5 : FVec F S128 .f32) (main_arg6 : FVec F S128x384 .f32) (main_arg7 : FVec F S128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x512x64 .f32 := Host.absf main_arg1
  let main_cst_0 : FVec F S_ .f32 := constant S_ .f32 0x7F800000#32
  let main_v5 : FVec F S4x512x512x64 .f32 := broadcastInDim S4x512x512x64 ![] bcast_S_S4x512x512x64 main_cst_0
  let main_v6 : IVec S4x512x512x64 1 := cmpf .olt main_v4 main_v5
  let main_c_1 : IVec S_ 1 := constantI S_ 1 1#1
  let main_v7 : IVec S_ 1 := (fun x v => Host.reduce IntOp.andi x v reducesTo_S4x512x512x64_S_d0_1_2_3 h_S_) main_v6 main_c_1
  let main_v8 : IVec S_ 1 := andi main_v3 main_v7
  let main_v9 : FVec F S4x512x512x1 .f32 := Host.absf main_arg2
  let main_cst_2 : FVec F S_ .f32 := constant S_ .f32 0x7F800000#32
  let main_v10 : FVec F S4x512x512x1 .f32 := broadcastInDim S4x512x512x1 ![] bcast_S_S4x512x512x1 main_cst_2
  let main_v11 : IVec S4x512x512x1 1 := cmpf .olt main_v9 main_v10
  let main_c_3 : IVec S_ 1 := constantI S_ 1 1#1
  let main_v12 : IVec S_ 1 := (fun x v => Host.reduce IntOp.andi x v reducesTo_S4x512x512x1_S_d0_1_2_3 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S4x512x128 : Shape := ⟨3, ![4, 512, 128]⟩
abbrev S4x512x512x64 : Shape := ⟨4, ![4, 512, 512, 64]⟩
abbrev S4x512x512x1 : Shape := ⟨4, ![4, 512, 512, 1]⟩
abbrev S128x128 : Shape := ⟨2, ![128, 128]⟩
abbrev S128x64 : Shape := ⟨2, ![128, 64]⟩
abbrev S128 : Shape := ⟨1, ![128]⟩
abbrev S128x384 : Shape := ⟨2, ![128, 384]⟩
abbrev S1x512x128 : Shape := ⟨3, ![1, 512, 128]⟩
abbrev S512x128 : Shape := ⟨2, ![512, 128]⟩
abbrev S4x512x512x128 : Shape := ⟨4, ![4, 512, 512, 128]⟩
abbrev S1x128x64x64 : Shape := ⟨4, ![1, 128, 64, 64]⟩
abbrev S1x128x64x1 : Shape := ⟨4, ![1, 128, 64, 1]⟩
abbrev S1x128x128 : Shape := ⟨3, ![1, 128, 128]⟩
abbrev S1x64x128 : Shape := ⟨3, ![1, 64, 128]⟩
abbrev S1x128x64x128 : Shape := ⟨4, ![1, 128, 64, 128]⟩
abbrev S128x64x64 : Shape := ⟨3, ![128, 64, 64]⟩
abbrev S8192x64 : Shape := ⟨2, ![8192, 64]⟩
abbrev S64x128 : Shape := ⟨2, ![64, 128]⟩
abbrev S8192x128 : Shape := ⟨2, ![8192, 128]⟩
abbrev S1x128 : Shape := ⟨2, ![1, 128]⟩
abbrev S128x64x128 : Shape := ⟨3, ![128, 64, 128]⟩
abbrev S128x1x128 : Shape := ⟨3, ![128, 1, 128]⟩
abbrev S1x1x128 : Shape := ⟨3, ![1, 1, 128]⟩
abbrev S128x64x1 : Shape := ⟨3, ![128, 64, 1]⟩

abbrev nBuf : Space → Nat
  | .hbm => 14
  | .vmem => 23
  | .smem => 0
  | _ => 0

abbrev bufTy : (tb : Table) → Fin (tcTables nBuf tb) → BufTy
  | .hbm, ⟨0, _⟩ => ⟨S4x512x128, .f32⟩
  | .hbm, ⟨1, _⟩ => ⟨S4x512x512x64, .f32⟩
  | .hbm, ⟨2, _⟩ => ⟨S4x512x512x1, .f32⟩
  | .hbm, ⟨3, _⟩ => ⟨S128x128, .f32⟩
  | .hbm, ⟨4, _⟩ => ⟨S128x64, .f32⟩
  | .hbm, ⟨5, _⟩ => ⟨S128, .f32⟩
  | .hbm, ⟨6, _⟩ => ⟨S128x384, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S4x512x128, .f32⟩
  | .hbm, ⟨12, _⟩ => ⟨S4x512x512x128, .f32⟩
  | .hbm, ⟨13, _⟩ => ⟨S4x512x128, .f32⟩
  | .local _ .vmem, ⟨0, _⟩ => ⟨S1x512x128, .f32⟩
  | .local _ .vmem, ⟨1, _⟩ => ⟨S1x512x128, .f32⟩
  | .local _ .vmem, ⟨2, _⟩ => ⟨S128x128, .f32⟩
  | .local _ .vmem, ⟨3, _⟩ => ⟨S1x512x128, .f32⟩
  | .local _ .vmem, ⟨4, _⟩ => ⟨S1x512x128, .f32⟩
  | .local _ .vmem, ⟨5, _⟩ => ⟨S1x128x64x64, .f32⟩
  | .local _ .vmem, ⟨6, _⟩ => ⟨S1x128x64x64, .f32⟩
  | .local _ .vmem, ⟨7, _⟩ => ⟨S1x128x64x1, .f32⟩
  | .local _ .vmem, ⟨8, _⟩ => ⟨S1x128x64x1, .f32⟩
  | .local _ .vmem, ⟨9, _⟩ => ⟨S1x128x128, .f32⟩
  | .local _ .vmem, ⟨10, _⟩ => ⟨S1x128x128, .f32⟩
  | .local _ .vmem, ⟨11, _⟩ => ⟨S1x64x128, .f32⟩
  | .local _ .vmem, ⟨12, _⟩ => ⟨S1x64x128, .f32⟩
  | .local _ .vmem, ⟨13, _⟩ => ⟨S128x64, .f32⟩
  | .local _ .vmem, ⟨14, _⟩ => ⟨S128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S1x128x64x128, .f32⟩
  | .local _ .vmem, ⟨20, _⟩ => ⟨S1x128x64x128, .f32⟩
  | .local _ .vmem, ⟨21, _⟩ => ⟨S1x128x128, .f32⟩
  | .local _ .vmem, ⟨22, _⟩ => ⟨S1x128x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20
abbrev cc1_sem11_0 : DmaSem sig := 21
abbrev cc1_sem11_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_10 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_11 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x128x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x128x64x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev stage1_10 : Fin 2 → Memref sig .tc .vmem S1x128x64x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev stage1_11 : Fin 2 → Memref sig .tc .vmem S1x128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, false]

class Facts₀ : Prop where
  slices_S128x384_S128x128_0_0 : S128x384.Slices ![0, 0] S128x128
  slices_S128x384_S128x128_0_128 : S128x384.Slices ![0, 128] S128x128
  slices_S128x384_S128x128_0_256 : S128x384.Slices ![0, 256] S128x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  transposes_S128x128_p1_0_S128x128 : S128x128.Transposes [1, 0] S128x128
  shapeCasts_S512x128_S1x512x128 : S512x128.ShapeCasts S1x512x128
  inb_S1x128x64x64_S1x128x64x64_0_0_0_0 : ∀ a, (![0, 0, 0, 0] : Fin 4 → Nat) a + S1x128x64x64.size a ≤ S1x128x64x64.size a
  h_S1x128x64x64 : 0 < S1x128x64x64.numel
  shapeCasts_S1x128x64x64_S128x64x64 : S1x128x64x64.ShapeCasts S128x64x64
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  shapeCasts_S128x64x64_S8192x64 : S128x64x64.ShapeCasts S8192x64
  transposes_S128x64_p1_0_S64x128 : S128x64.Transposes [1, 0] S64x128
  shapeCasts_S128_S1x128 : S128.ShapeCasts S1x128
  broadcasts_S1x128_S8192x128 : S1x128.Broadcasts S8192x128
  shapeCasts_S8192x128_S128x64x128 : S8192x128.ShapeCasts S128x64x128
  inb_S1x128x64x128_S1x128x64x128_0_0_0_0 : ∀ a, (![0, 0, 0, 0] : Fin 4 → Nat) a + S1x128x64x128.size a ≤ S1x128x64x128.size a
  h_S1x128x64x128 : 0 < S1x128x64x128.numel
  shapeCasts_S1x128x64x128_S128x64x128 : S1x128x64x128.ShapeCasts S128x64x128
  shapeCasts_S128x64x128_S1x128x64x128 : S128x64x128.ShapeCasts S1x128x64x128
  shapeCasts_S128x128_S128x128 : S128x128.ShapeCasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S128x128_S128x1x128 : S128x128.ShapeCasts S128x1x128
  shapeCasts_S64x128_S1x64x128 : S64x128.ShapeCasts S1x64x128
  broadcasts_S128x1x128_S128x64x128 : S128x1x128.Broadcasts S128x64x128
  broadcasts_S1x64x128_S128x64x128 : S1x64x128.Broadcasts S128x64x128
  shapeCasts_S128_S1x1x128 : S128.ShapeCasts S1x1x128
  broadcasts_S1x1x128_S128x64x128 : S1x1x128.Broadcasts S128x64x128
  inb_S1x128x64x1_S1x128x64x1_0_0_0_0 : ∀ a, (![0, 0, 0, 0] : Fin 4 → Nat) a + S1x128x64x1.size a ≤ S1x128x64x1.size a
  h_S1x128x64x1 : 0 < S1x128x64x1.numel
  shapeCasts_S1x128x64x1_S128x64x1 : S1x128x64x1.ShapeCasts S128x64x1
  broadcasts_S128x64x1_S128x64x128 : S128x64x1.Broadcasts S128x64x128
  reduces_S128x64x128_S128x128 : S128x64x128.Reduces [1] S128x128
  shapeCasts_S128x128_S1x128x128 : S128x128.ShapeCasts S1x128x128
  dot_S512x128_S128x128_S512x128_1_0_0_1_n_n_wf : DotDims.WF S512x128 S128x128 S512x128 [1] [0] [0] [1] [] []
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S128x128_S128x128_S128x128_1_0_0_1_n_n_wf : DotDims.WF S128x128 S128x128 S128x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x512x128.size a
  hwx0_0 : ∀ i : grid0.Coords, EltTy.bits .f32 = 32 ∨ (Rect.block (s := S4x512x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S4x512x128.size a
  hwx0_2 : ∀ i : grid0.Coords, EltTy.bits .f32 = 32 ∨ (Rect.block (s := S4x512x128) S1x512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64x64.size a ≤ S4x512x512x64.size a
  hwx1_0 : ∀ i : grid1.Coords, EltTy.bits .f32 = 32 ∨ (Rect.block (s := S4x512x512x64) S1x128x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64x1.size a ≤ S4x512x512x1.size a
  hwx1_1 : ∀ i : grid1.Coords, EltTy.bits .f32 = 32 ∨ (Rect.block (s := S4x512x512x1) S1x128x64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S4x512x128.size a
  hwx1_2 : ∀ i : grid1.Coords, EltTy.bits .f32 = 32 ∨ (Rect.block (s := S4x512x128) S1x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x128.size a ≤ S4x512x128.size a
  hwx1_3 : ∀ i : grid1.Coords, EltTy.bits .f32 = 32 ∨ (Rect.block (s := S4x512x128) S1x64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x128x64x128.size a ≤ S4x512x512x128.size a
  hwx1_10 : ∀ i : grid1.Coords, EltTy.bits .f32 = 32 ∨ (Rect.block (s := S4x512x512x128) S1x128x64x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x128x128.size a ≤ S4x512x128.size a
  hwx1_11 : ∀ i : grid1.Coords, EltTy.bits .f32 = 32 ∨ (Rect.block (s := S4x512x128) S1x128x128.size (cc1_transform_11 i) (hinb1_11 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x128x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x128x64x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg7) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v4_0) S1x128x64x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v4_1) S1x128x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S4x512x128 : Shape := ⟨3, ![4, 512, 128]⟩
abbrev S4x512x512x64 : Shape := ⟨4, ![4, 512, 512, 64]⟩
abbrev S4x512x512x1 : Shape := ⟨4, ![4, 512, 512, 1]⟩
abbrev S128x128 : Shape := ⟨2, ![128, 128]⟩
abbrev S128x64 : Shape := ⟨2, ![128, 64]⟩
abbrev S128 : Shape := ⟨1, ![128]⟩
abbrev S128x384 : Shape := ⟨2, ![128, 384]⟩
abbrev S4x512x512x128 : Shape := ⟨4, ![4, 512, 512, 128]⟩
abbrev S1x1x1x128 : Shape := ⟨4, ![1, 1, 1, 128]⟩
abbrev S4x512x1x128 : Shape := ⟨4, ![4, 512, 1, 128]⟩
abbrev S4x1x512x128 : Shape := ⟨4, ![4, 1, 512, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x512x64, .f32⟩
  | .hbm, ⟨2, _⟩ => ⟨S4x512x512x1, .f32⟩
  | .hbm, ⟨3, _⟩ => ⟨S128x128, .f32⟩
  | .hbm, ⟨4, _⟩ => ⟨S128x64, .f32⟩
  | .hbm, ⟨5, _⟩ => ⟨S128, .f32⟩
  | .hbm, ⟨6, _⟩ => ⟨S128x384, .f32⟩
  | .hbm, ⟨7, _⟩ => ⟨S128, .f32⟩
  | .hbm, ⟨8, _⟩ => ⟨S4x512x128, .f32⟩
  | .hbm, ⟨9, _⟩ => ⟨S4x512x512x128, .f32⟩
  | .hbm, ⟨10, _⟩ => ⟨S1x1x1x128, .f32⟩
  | .hbm, ⟨11, _⟩ => ⟨S4x512x512x128, .f32⟩
  | .hbm, ⟨12, _⟩ => ⟨S4x512x512x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S4x512x128, .f32⟩
  | .hbm, ⟨17, _⟩ => ⟨S4x512x128, .f32⟩
  | .hbm, ⟨18, _⟩ => ⟨S4x512x512x128, .f32⟩
  | .hbm, ⟨19, _⟩ => ⟨S4x512x1x128, .f32⟩
  | .hbm, ⟨20, _⟩ => ⟨S4x1x512x128, .f32⟩
  | .hbm, ⟨21, _⟩ => ⟨S4x512x512x128, .f32⟩
  | .hbm, ⟨22, _⟩ => ⟨S4x512x512x128, .f32⟩
  | .hbm, ⟨23, _⟩ => ⟨S4x512x512x128, .f32⟩
  | .hbm, ⟨24, _⟩ => ⟨S4x512x512x128, .f32⟩
  | .hbm, ⟨25, _⟩ => ⟨S1x1x1x128, .f32⟩
  | .hbm, ⟨26, _⟩ => ⟨S4x512x512x128, .f32⟩
  | .hbm, ⟨27, _⟩ => ⟨S4x512x512x128, .f32⟩
  | .hbm, ⟨28, _⟩ => ⟨S4x512x512x128, .f32⟩
  | .hbm, ⟨29, _⟩ => ⟨S4x512x512x128, .f32⟩
  | .hbm, ⟨30, _⟩ => ⟨S_, .f32⟩
  | .hbm, ⟨31, _⟩ => ⟨S4x512x128, .f32⟩
  | .hbm, ⟨32, _⟩ => ⟨S4x512x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S4x512x512x128_0_1_2_3 : S1x1x1x128.BroadcastsInDim S4x512x512x128 (![0, 1, 2, 3] : Fin 4 → Fin S4x512x512x128.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S4x512x128_S4x512x1x128_0_1_3 : S4x512x128.BroadcastsInDim S4x512x1x128 (![0, 1, 3] : Fin 3 → Fin S4x512x1x128.rank)
  bcast_S4x512x128_S4x1x512x128_0_2_3 : S4x512x128.BroadcastsInDim S4x1x512x128 (![0, 2, 3] : Fin 3 → Fin S4x1x512x128.rank)
  bcast_S4x512x1x128_S4x512x512x128_0_1_2_3 : S4x512x1x128.BroadcastsInDim S4x512x512x128 (![0, 1, 2, 3] : Fin 4 → Fin S4x512x512x128.rank)
  bcast_S4x1x512x128_S4x512x512x128_0_1_2_3 : S4x1x512x128.BroadcastsInDim S4x512x512x128 (![0, 1, 2, 3] : Fin 4 → Fin S4x512x512x128.rank)
  bcast_S4x512x512x1_S4x512x512x128_0_1_2_3 : S4x512x512x1.BroadcastsInDim S4x512x512x128 (![0, 1, 2, 3] : Fin 4 → Fin S4x512x512x128.rank)
  reducesTo_S4x512x512x128_S4x512x128_d2 : S4x512x512x128.ReducesTo [2] S4x512x128
  h_S_ : 0 < S_.numel
  dot_S4x512x128_S128x128_S4x512x128_2_1_01_0_n_n_wf : DotDims.WF S4x512x128 S128x128 S4x512x128 [2] [1] [0, 1] [0] [] []
  dot_S4x512x512x64_S128x64_S4x512x512x128_3_1_012_0_n_n_wf : DotDims.WF S4x512x512x64 S128x64 S4x512x512x128 [3] [1] [0, 1, 2] [0] [] []
  dot_S4x512x512x128_S128x128_S4x512x512x128_3_1_012_0_n_n_wf : DotDims.WF S4x512x512x128 S128x128 S4x512x512x128 [3] [1] [0, 1, 2] [0] [] []

variable [Facts₀]

def dot_S4x512x128_S128x128_S4x512x128_2_1_01_0_n_n : DotDims S4x512x128 S128x128 S4x512x128 where
  lhsContracting := [2]
  rhsContracting := [1]
  lhsNonContracting := [0, 1]
  rhsNonContracting := [0]
  lhsBatch := []
  rhsBatch := []
  wf := dot_S4x512x128_S128x128_S4x512x128_2_1_01_0_n_n_wf
def dot_S4x512x512x64_S128x64_S4x512x512x128_3_1_012_0_n_n : DotDims S4x512x512x64 S128x64 S4x512x512x128 where
  lhsContracting := [3]
  rhsContracting := [1]
  lhsNonContracting := [0, 1, 2]
  rhsNonContracting := [0]
  lhsBatch := []
  rhsBatch := []
  wf := dot_S4x512x512x64_S128x64_S4x512x512x128_3_1_012_0_n_n_wf
def dot_S4x512x512x128_S128x128_S4x512x512x128_3_1_012_0_n_n : DotDims S4x512x512x128 S128x128 S4x512x512x128 where
  lhsContracting := [3]
  rhsContracting := [1]
  lhsNonContracting := [0, 1, 2]
  rhsNonContracting := [0]
  lhsBatch := []
  rhsBatch := []
  wf := dot_S4x512x512x128_S128x128_S4x512x512x128_3_1_012_0_n_n_wf

class Facts : Prop extends Facts₀ where

variable [Facts]
-- ==== Proof.WOuts.lean ====
/-
  What each kernel body leaves in its output blocks, as pure functions of the blocks it reads.

  Region 0 (the node projection) has three windows: the node features' block `x0 : [1,512,128]`, the weight
  `x1 : [128,128]` and the output block; the body stores `x0 · x1ᵀ` (the payload `k0_pay1`) over the whole output block.

  Region 1 (edge projection and masked aggregation) has twelve windows, in the kernel's operand order:
  0 the edge features' tile `[1,128,64,64]`, 1 the mask's tile `[1,128,64,1]`, 2 the projected nodes' row tile `[1,128,128]`,
  3 their neighbour tile `[1,64,128]`, 4 the edge weight `[128,64]`, 5 its bias `[128]`, 6, 7, 8 the three square blocks of the
  message weight, 9 the message bias, 10 the projected edges' tile (output), 11 the new node features' row tile (output,
  carried along the neighbour axis). The body stores the projected edge tile (`k1_pay4`) whole; and, for the row tile, starts
  from the projected nodes' row tile when the neighbour-tile coordinate is 0 and otherwise from what the tile held, and adds
  the masked messages summed over this neighbour tile (`k1_pay2`).
-/
import proofs.«115202_j74612171866795_1_alg».proof.Proof.Gen.Kernel.Skeleton

noncomputable section

namespace Cert.Kernel.Hand

open Idealize.ShloMosaic Idealize.SL.Sem Cert.Kernel Cert.Kernel.Gen

variable {F : FTy → Type} [FloatOps F]

/-- Region 0's output block: the node block times the transposed weight. -/
def out0 (x0 : Vec F S1x512x128 .f32) (x1 : Vec F S128x128 .f32) : Vec F S1x512x128 .f32 :=
  k0_pay1 x0 x1

/-- Region 1's projected-edge tile: the edge tile times the transposed edge weight, plus the bias. -/
def out10 (x0 : Vec F S1x128x64x64 .f32) (x4 : Vec F S128x64 .f32) (x5 : Vec F S128 .f32) : Vec F S1x128x64x128 .f32 :=
  k1_pay4 x0 x4 x5

/-- What the row tile is reset to at the first neighbour tile: the projected nodes' row tile. -/
def init11 (x2 : Vec F S1x128x128 .f32) : Vec F S1x128x128 .f32 :=
  k1_pay1 (k1_pay6 x2)

/-- One step of the aggregation: the row tile's contents `d` plus this neighbour tile's masked messages, summed over the tile. -/
def acc11 (x0 : Vec F S1x128x64x64 .f32) (x1 : Vec F S1x128x64x1 .f32) (x2 : Vec F S1x128x128 .f32) (x3 : Vec F S1x64x128 .f32)
    (x4 : Vec F S128x64 .f32) (x5 : Vec F S128 .f32) (x6 x7 x8 : Vec F S128x128 .f32) (x9 : Vec F S128 .f32)
    (d : Vec F S1x128x128 .f32) : Vec F S1x128x128 .f32 :=
  k1_pay2 (k1_pay5 x0 x4 x5 x8) (k1_pay6 x2) (k1_pay7 x3) (k1_pay8 x6) (k1_pay9 x7) x9 x1 d

/-- Region 1's row tile after the body at grid coordinates `i`, having held `d` before it: reset first when the
    neighbour-tile coordinate is 0, then one aggregation step. -/
def out11 (i : grid1.Coords) (x0 : Vec F S1x128x64x64 .f32) (x1 : Vec F S1x128x64x1 .f32) (x2 : Vec F S1x128x128 .f32) (x3 : Vec F S1x64x128 .f32)
    (x4 : Vec F S128x64 .f32) (x5 : Vec F S128 .f32) (x6 x7 x8 : Vec F S128x128 .f32) (x9 : Vec F S128 .f32)
    (d : Vec F S1x128x128 .f32) : Vec F S1x128x128 .f32 :=
  acc11 x0 x1 x2 x3 x4 x5 x6 x7 x8 x9 (if (i 2).val = 0 then init11 x2 else d)

end Cert.Kernel.Hand

end
-- ==== Proof.WData.lean ====
/-
  The proof data of the two kernel regions, at a parameter `V`: the contents every buffer of the core holds when the
  region is entered.

  A window's block at a grid point is read off its array as the region finds it. An input window's staging buffer
  holds that block at every point, whether or not the pipeline fetched it there (an unfetched window's block index has
  not moved). Region 0 writes, at each of its four points, the node block times the transposed weight. Region 1 runs
  over a 4 × 4 × 8 grid (batch, row tile, neighbour tile; the last axis fastest): at every point it writes the
  projected edge tile, and it carries the new node features' row tile along the neighbour axis — reset to the
  projected nodes' row tile where the neighbour-tile coordinate is 0, one aggregation step added at every point,
  written back at the eighth. The projected nodes' array is read through two windows of region 1 (by rows of the
  receiving node and by rows of the neighbour): each holds a half share of it.
-/
import proofs.«115202_j74612171866795_1_alg».proof.Proof.WOuts
import proofs.«115202_j74612171866795_1_alg».proof.Proof.Gen.Kernel.Launch
import proofs.«115202_j74612171866795_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Region 0's proof data: inputs stay at their blocks, the output block is the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The neighbour-tile coordinate of a point is its position modulo 8. -/
theorem coord2 : ∀ t : Fin cfg1.N, ((grid1.coords t) 2).val = t.val % 8 :=
  (by decide +kernel : ∀ t : Fin grid1.N, ((grid1.coords t) 2).val = t.val % 8)

/-- The new node features' row tile after the body at position `n`: the body's step at that point over what the
    position before left (at a point whose neighbour-tile coordinate is 0 the step does not read it). -/
def outs11 (c : Dev nD) : (n : ℕ) → n < cfg1.N → Vec F S1x128x128 .f32
  | 0, hn => out11 (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (init11 (iblk1 V c 2 ⟨0, hn⟩))
  | n + 1, hn => out11 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outs11 c n (Nat.lt_of_succ_lt hn))

/-- At any point the carried tile is the body's step over `d`, for any `d` that is what the position before left
    unless the neighbour-tile coordinate is 0. -/
theorem outs11_eq (c : Dev nD) (t : Fin cfg1.N) (d : Vec F S1x128x128 .f32)
    (hd : t.val % 8 ≠ 0 → d = outs11 V c (t.val - 1) (Nat.lt_of_le_of_lt (Nat.sub_le _ _) t.isLt)) :
    outs11 V c t.val t.isLt = out11 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) d := by
  by_cases h : t.val % 8 = 0
  · have hc : ((grid1.coords t) 2).val = 0 := (coord2 t).trans h
    obtain ⟨n, hn⟩ := t
    cases n with
    | zero => unfold outs11 out11; rw [if_pos hc, if_pos hc]
    | succ n => unfold outs11 out11; rw [if_pos hc, if_pos hc]
  · obtain ⟨n, hn⟩ := t
    cases n with
    | zero => exact absurd (Nat.zero_mod _) h
    | succ n => rw [hd h]; rfl

/-- Region 1's proof data: inputs stay at their blocks; the projected edge tile; the carried row tile. The two
    windows on the projected nodes' array hold complementary half shares of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out10 (iblk1 V c 0 t) (iblk1 V c 4 t) (iblk1 V c 5 t)
    | ⟨11, _⟩ => outs11 V c t.val t.isLt
  Φ _ := Pipeline.ΦA spec1 c
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out10 (iblk1 V c 0 t) (iblk1 V c 4 t) (iblk1 V c 5 t) := by dsimp only [dat1]
theorem after1_11 (c : Dev nD) (t : Fin cfg1.N) : (dat1 V c).after 11 t = outs11 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- Away from the first neighbour tile the row tile's staging buffer holds what the body left at the point before: the
    buffer is written back only after the eighth neighbour tile. -/
theorem before1_11 (c : Dev nD) (t : Fin cfg1.N) (h0 : t.val % 8 ≠ 0) (d) :
    (dat1 V c).before 11 t d = outs11 V c (t.val - 1) (Nat.lt_of_le_of_lt (Nat.sub_le _ _) t.isLt) := by
  have hN : t.val < 128 := lt_of_lt_of_eq t.isLt (show cfg1.N = 128 from N_1)
  rw [Dat.before_out_kept _ 11 rfl t (by omega) (Bool.eq_false_iff.mpr fun h => by have := (flush1_11 _).mp h; dsimp only at this; omega)
    (fun _ => rfl) (fun _ _ => rfl)]
  dsimp only [dat1]

end Cert.Kernel.Hand

end
-- ==== Proof.WArrays1.lean ====
/-
  Region 1's arrays and the buffers behind them. Its twelve windows stand on eleven distinct buffers: the projected
  nodes' array is read through two windows, by rows of the receiving node and by rows of the neighbour. Holding each of
  the eleven buffers whole is holding the twelve windows' arrays with that one buffer's ownership halved between its two
  windows, and back — as long as both halves speak of the same contents.
-/
import proofs.«115202_j74612171866795_1_alg».proof.Proof.WOuts
import proofs.«115202_j74612171866795_1_alg».proof.Proof.Gen.Kernel.Launch
import proofs.«115202_j74612171866795_1_alg».proof.Proof.Gen.Kernel.Points
import proofs.«115202_j74612171866795_1_alg».proof.Proof.WData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's windows. -/
theorem refs1_eq : Finset.univ.image (Pipeline.arrRef spec1) = ([main_arg1, main_arg2, main_v3, main_arg4, main_arg5, main_v0, main_v1, main_v2, main_arg7, main_v4_0, main_v4_1] : List (Ref sig .tc)).toFinset := by decide

theorem refs1_nodup : ([main_arg1, main_arg2, main_v3, main_arg4, main_arg5, main_v0, main_v1, main_v2, main_arg7, main_v4_0, main_v4_1] : List (Ref sig .tc)).Nodup := by decide

/-- Each window's array is held at the full share, except the two windows on the projected nodes' array. -/
theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl
theorem share1_10 (c : Dev nD) : (dat1 V c).share 10 = fullShare := rfl
theorem share1_11 (c : Dev nD) : (dat1 V c).share 11 = fullShare := rfl

/-- The eleven buffers one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_arg2) ↦{fullShare} V' main_arg2) ∗ (((c : Thread nD τ).loc main_v3) ↦{fullShare} V' main_v3) ∗ (((c : Thread nD τ).loc main_arg4) ↦{fullShare} V' main_arg4) ∗ (((c : Thread nD τ).loc main_arg5) ↦{fullShare} V' main_arg5) ∗ (((c : Thread nD τ).loc main_v0) ↦{fullShare} V' main_v0) ∗ (((c : Thread nD τ).loc main_v1) ↦{fullShare} V' main_v1) ∗ (((c : Thread nD τ).loc main_v2) ↦{fullShare} V' main_v2) ∗ (((c : Thread nD τ).loc main_arg7) ↦{fullShare} V' main_arg7) ∗ (((c : Thread nD τ).loc main_v4_0) ↦{fullShare} V' main_v4_0) ∗ (((c : Thread nD τ).loc main_v4_1) ↦{fullShare} V' main_v4_1)) := by
  unfold Pipeline.arrBufs; exact BI.bigSep_eq_bigSepL_of_eq _ refs1_eq refs1_nodup _

/-- ENTRY: the eleven buffers whole, at contents the windows' arrays are read off, are region 1's arrays. -/
theorem arrays1_of_bufs (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  rw [arrBufs1_eq]
  unfold Dat.arrays
  rw [bigSep_W1]
  simp only [hG, share1_0, share1_1, share1_2, share1_3, share1_4, share1_5, share1_6, share1_7, share1_8, share1_9, share1_10, share1_11, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ, (arr_whole1 11).set_eq_univ]
  iintro ⟨H1, H2, H3, H4, H5, H6, H7, H8, H9, H10, H11⟩
  ihave H3 := (pointsTo_share (PosShare.mem_left_op_right fullShare)).1 $$ H3
  icases H3 with ⟨H3a, H3b⟩
  isplitl [H1]; · iexact H1
  isplitl [H2]; · iexact H2
  isplitl [H3a]; · iexact H3a
  isplitl [H3b]; · iexact H3b
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: region 1's arrays, at contents read off one valuation, are the eleven buffers whole at it. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (dat1 V c).arrays G ⊢ (Pipeline.arrBufs (Ix := Unit) (Name := ℕ) (U := UR sig nD τ) (Lvl := ℕ) spec1 c V' : sProp 𝕄) := by
  rw [arrBufs1_eq]
  unfold Dat.arrays
  rw [bigSep_W1]
  simp only [hG, share1_0, share1_1, share1_2, share1_3, share1_4, share1_5, share1_6, share1_7, share1_8, share1_9, share1_10, share1_11, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ, (arr_whole1 11).set_eq_univ]
  iintro ⟨H1, H2, H3a, H3b, H4, H5, H6, H7, H8, H9, H10, H11⟩
  ihave H3 := (pointsTo_share (PosShare.mem_left_op_right fullShare)).2 $$ [H3a H3b]
  · isplitl [H3a] <;> iassumption
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Kernel.Hand

end
-- ==== Proof.WRun.lean ====
/-
  The run of the whole program: a stretch of host operations (three column blocks cut out of the message weight),
  the node-projection region, the aggregation region.

  Between two items every buffer of a core holds a known array: the launch contents; then the three blocks written;
  then the projected nodes at what the first region's write-backs leave; then the projected edges and the new node
  features at what the second region's write-backs leave. Each region is entered from "every buffer at the contents
  before it" and left at "every buffer at the contents after it"; the generator register and the core's empty debt
  ride along. At the end every buffer is read against the last of these arrays; no item writes an argument.
-/
import proofs.«115202_j74612171866795_1_alg».proof.Proof.WOuts
import proofs.«115202_j74612171866795_1_alg».proof.Proof.Gen.Kernel.Launch
import proofs.«115202_j74612171866795_1_alg».proof.Proof.Gen.Kernel.Points
import proofs.«115202_j74612171866795_1_alg».proof.Proof.WData
import proofs.«115202_j74612171866795_1_alg».proof.Proof.WArrays1
import proofs.«115202_j74612171866795_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs leave, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region: the projected edges and the new node features at what its write-backs leave, the rest
    as entered. -/
def W3 (c : Dev nD) : Valuation τ sig (Elt F) :=
  Function.update (Function.update (W2 m c) (Proc.devRef .tc main_v4_0) ((dat1 (V2 m) c).arrAt 10 cfg1.N))
    (Proc.devRef .tc main_v4_1) ((dat1 (V2 m) c).arrAt 11 cfg1.N)
theorem W3_v4_1 (c : Dev nD) : W3 m c (Proc.devRef .tc main_v4_1) = (dat1 (V2 m) c).arrAt 11 cfg1.N := by
  unfold W3; exact Function.update_self ..
theorem W3_v4_0 (c : Dev nD) : W3 m c (Proc.devRef .tc main_v4_0) = (dat1 (V2 m) c).arrAt 10 cfg1.N := by
  unfold W3
  rw [Function.update_of_ne (StableHlo.devRef_ne_of_ne (by decide) : (Proc.devRef .tc main_v4_0 : DevRef τ sig) ≠ Proc.devRef .tc main_v4_1)]
  exact Function.update_self ..
theorem W3_of_ne (c : Dev nD) (b : Ref sig .tc) (h0 : b ≠ main_v4_0) (h1 : b ≠ main_v4_1) :
    W3 m c (Proc.devRef .tc b) = W2 m c (Proc.devRef .tc b) := by
  unfold W3
  rw [Function.update_of_ne (StableHlo.devRef_ne_of_ne h1 : (Proc.devRef .tc b : DevRef τ sig) ≠ Proc.devRef .tc main_v4_1),
    Function.update_of_ne (StableHlo.devRef_ne_of_ne h0 : (Proc.devRef .tc b : DevRef τ sig) ≠ Proc.devRef .tc main_v4_0)]
abbrev V3 : (c : Dev nD) → (b : Ref sig .tc) → Buf (Elt F) ((c : Thread nD τ).loc b) := fun c b => W3 m c b

/-- At the second region's exit each window's array holds what the pipeline leaves: an input's array is never
    written, the two outputs are the updated buffers. -/
theorem hF1 (c : Dev nD) : ∀ w : Fin 12, (dat1 (V2 m) c).arrAt w cfg1.N = V3 m c (Pipeline.arrRef spec1 w) := fun
  | 0 => (((dat1 (V2 m) c).arrAt_in 0 rfl _).trans (A_eq1 (V2 m) c 0)).trans (W3_of_ne m c _ (by decide) (by decide)).symm
  | 1 => (((dat1 (V2 m) c).arrAt_in 1 rfl _).trans (A_eq1 (V2 m) c 1)).trans (W3_of_ne m c _ (by decide) (by decide)).symm
  | 2 => (((dat1 (V2 m) c).arrAt_in 2 rfl _).trans (A_eq1 (V2 m) c 2)).trans (W3_of_ne m c _ (by decide) (by decide)).symm
  | 3 => (((dat1 (V2 m) c).arrAt_in 3 rfl _).trans (A_eq1 (V2 m) c 3)).trans (W3_of_ne m c _ (by decide) (by decide)).symm
  | 4 => (((dat1 (V2 m) c).arrAt_in 4 rfl _).trans (A_eq1 (V2 m) c 4)).trans (W3_of_ne m c _ (by decide) (by decide)).symm
  | 5 => (((dat1 (V2 m) c).arrAt_in 5 rfl _).trans (A_eq1 (V2 m) c 5)).trans (W3_of_ne m c _ (by decide) (by decide)).symm
  | 6 => (((dat1 (V2 m) c).arrAt_in 6 rfl _).trans (A_eq1 (V2 m) c 6)).trans (W3_of_ne m c _ (by decide) (by decide)).symm
  | 7 => (((dat1 (V2 m) c).arrAt_in 7 rfl _).trans (A_eq1 (V2 m) c 7)).trans (W3_of_ne m c _ (by decide) (by decide)).symm
  | 8 => (((dat1 (V2 m) c).arrAt_in 8 rfl _).trans (A_eq1 (V2 m) c 8)).trans (W3_of_ne m c _ (by decide) (by decide)).symm
  | 9 => (((dat1 (V2 m) c).arrAt_in 9 rfl _).trans (A_eq1 (V2 m) c 9)).trans (W3_of_ne m c _ (by decide) (by decide)).symm
  | 10 => (W3_v4_0 m c).symm
  | 11 => (W3_v4_1 m c).symm
  | ⟨_ + 12, h⟩ => absurd h (Nat.not_lt.2 (Nat.le_add_left _ _))
theorem hrest1 (c : Dev nD) : ∀ b, b ∉ Finset.univ.image (Pipeline.arrRef spec1) → V3 m c b = V2 m c b :=
  fun b hb => W3_of_ne m c b (fun e => hb (Finset.mem_image.mpr ⟨10, Finset.mem_univ _, e.symm⟩)) (fun e => hb (Finset.mem_image.mpr ⟨11, Finset.mem_univ _, e.symm⟩))

/-! ## No item writes an argument -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide) (by decide)
    _ = W1 m c (Proc.devRef .tc main_arg0) := (W2_arr m c 0).trans (((dat0 (V1 m) c).arrAt_in 0 rfl _).trans (A_eq0 (V1 m) c 0))
    _ = m ((c : Thread nD τ).loc main_arg0) := Gen.V1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide) (by decide)
    _ = W1 m c (Proc.devRef .tc main_arg1) := W2_of_ne m c main_arg1 (by decide)
    _ = m ((c : Thread nD τ).loc main_arg1) := Gen.V1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide) (by decide)
    _ = W1 m c (Proc.devRef .tc main_arg2) := W2_of_ne m c main_arg2 (by decide)
    _ = m ((c : Thread nD τ).loc main_arg2) := Gen.V1_of m c main_arg2 (by decide)

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide) (by decide)
    _ = W1 m c (Proc.devRef .tc main_arg3) := (W2_arr m c 1).trans (((dat0 (V1 m) c).arrAt_in 1 rfl _).trans (A_eq0 (V1 m) c 1))
    _ = m ((c : Thread nD τ).loc main_arg3) := Gen.V1_of m c main_arg3 (by decide)

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide) (by decide)
    _ = W1 m c (Proc.devRef .tc main_arg4) := W2_of_ne m c main_arg4 (by decide)
    _ = m ((c : Thread nD τ).loc main_arg4) := Gen.V1_of m c main_arg4 (by decide)

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide) (by decide)
    _ = W1 m c (Proc.devRef .tc main_arg5) := W2_of_ne m c main_arg5 (by decide)
    _ = m ((c : Thread nD τ).loc main_arg5) := Gen.V1_of m c main_arg5 (by decide)

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide) (by decide)
    _ = W1 m c (Proc.devRef .tc main_arg6) := W2_of_ne m c main_arg6 (by decide)
    _ = m ((c : Thread nD τ).loc main_arg6) := Gen.V1_of m c main_arg6 (by decide)

theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide) (by decide)
    _ = W1 m c (Proc.devRef .tc main_arg7) := W2_of_ne m c main_arg7 (by decide)
    _ = m ((c : Thread nD τ).loc main_arg7) := Gen.V1_of m c main_arg7 (by decide)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core's debt, empty. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

variable (hb0 : ∀ c : Dev nD, BodyObligation (dat0 (F := F) (V1 m) c) (defs₀ (F := F)) Variants.none () Set.univ)
variable (hb1 : ∀ c : Dev nD, BodyObligation (dat1 (F := F) (V2 m) c) (defs₀ (F := F)) Variants.none () Set.univ)

set_option backward.isDefEq.respectTransparency.types false in
/-- The node-projection region: entered from every buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers of a core split into the buffers behind region 1's windows and the rest. -/
theorem split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec1 c V' ∗ Pipeline.unscopedRest spec1 c V') := by
  classical
  have hA : Finset.univ.image (Pipeline.arrRef spec1) ⊆ Finset.univ.filter fun b : Ref sig .tc => ¬ b.isScoped := by decide
  unfold unscopedBufs Pipeline.unscopedRest Pipeline.arrBufs
  rw [BI.bigSep_sdiff_split hA]
  rfl

set_option backward.isDefEq.respectTransparency.types false in
/-- The aggregation region: entered from every buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs (Ix := Unit) (Name := ℕ) (U := UR sig nD τ) (Lvl := ℕ) c (V2 m c) : sProp 𝕄)
        ⊢ iprop((pdats m 1 c).arrays ((pdats m 1 c).arrAt · 0) ∗ Pipeline.unscopedRest spec1 c (V2 m c)) := by
      rw [split1]
      exact sep_mono (arrays1_of_bufs (V2 m) c (V2 m c) _ fun w => A_eq1 (V2 m) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs (Ix := Unit) (Name := ℕ) (U := UR sig nD τ) (Lvl := ℕ) c (V3 m c) : sProp 𝕄) := by
      rw [split1]
      refine sep_mono (bufs_of_arrays1 (V2 m) c (V3 m c) _ (hF1 m c)) (Entails.of_eq ?_)
      unfold Pipeline.unscopedRest
      exact BI.bigSep_congr fun b hb => by rw [hrest1 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg hostOps0 hostOps0_sub Gen.hostOps0_fresh (W0 m)),
    .region (reg0 m hb0),
    .region (reg1 m hb1) ]
theorem main_run (c : Dev nD) : main (F := F) c = Pipeline.Seg.run (segs m hb0 hb1) := (main_chain c).trans (by chain_rfl)

include hb0 hb1 in
set_option backward.isDefEq.respectTransparency.types false in
/-- Every weakly fair execution of the program from memory `m` with zero counters terminates, nothing faulting, and in
    every final state each unscoped buffer of each core holds the last boundary's array. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m hb0 hb1)
    (fun c Q => by rw [main_run m hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.WBody.lean ====
/-
  The two kernel bodies' Hoare triples. On whole staging memrefs, the inputs' at the blocks they hold and the outputs'
  as stated, each body runs to the continuation holding every input as it was and every output at the pure function of
  the blocks that Outs.lean names: every store of either body covers its whole block, so what a block ends at is the
  payload of the last store into it, and a load of a whole block reads the block itself.
-/
import proofs.«115202_j74612171866795_1_alg».proof.Proof.WOuts
import proofs.«115202_j74612171866795_1_alg».proof.Proof.Gen.Kernel.Launch
import proofs.«115202_j74612171866795_1_alg».proof.Proof.Gen.Kernel.Skeleton
import proofs.«115202_j74612171866795_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The literal zero offsets of rank 1 to 4 are the zero function. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

section WholeBlock

variable {Val : EltTy → Type} [∀ e, Nonempty (Val e)] {sig' : RefSig} {κ : Kind} {sp : Space} {S : Shape} {e : EltTy}

/-- After a store of `w` through the whole-block rectangle, LAST, a buffer reads `w` whatever it held and whatever was stored before. -/
private theorem read_writes_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end WholeBlock

set_option maxHeartbeats 1000000 in
/-- Region 0's body: three whole-block loads and one whole-block store of the product over the output block. -/
theorem sound_kernel0 (c : Dev nD) (E : Set ℕ) (i : grid0.Coords)
    (arg1 : Memref sig .tc .vmem S1x512x128 .f32) (harg1 : arg1.IsWhole) (arg2 : Memref sig .tc .vmem S128x128 .f32) (harg2 : arg2.IsWhole)
    (arg3 : Memref sig .tc .vmem S1x512x128 .f32) (harg3 : arg3.IsWhole)
    (x0 : Vec F S1x512x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__xp_kernel i arg1 harg1 arg2 harg2 arg3 harg3) K := by
  simp only [cc0__xp_kernel_eq_skeleton]; unfold cc0__xp_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole _ _ hz3]
  simp only [View.readAt_eq_ld, View.ld_unit_zero (S := S1x512x128) hz3, View.ld_unit_zero (S := S128x128) hz2]
  rfl

/-- The condition of the second body's branch, from the grid coordinates. -/
private abbrev cond1 (i : grid1.Coords) : Prop :=
  (Scalar.cmpi .ne (Scalar.extui (Scalar.cmpi .eq (BitVec.ofNat 32 (i 2).val) 0#32)) 0#32) = 1#1

/-- It holds exactly when the third grid coordinate is 0 — decided over the eight values of that coordinate. -/
private theorem cond1_iff (i : grid1.Coords) : cond1 i ↔ (i 2).val = 0 := by
  have key : ∀ n : Fin 8, ((Scalar.cmpi .ne (Scalar.extui (Scalar.cmpi .eq (BitVec.ofNat 32 n.val) 0#32)) 0#32) = 1#1 ↔ n.val = 0) := by
    decide
  exact key (i 2)

set_option maxHeartbeats 4000000 in
/-- Region 1's body. Its part stores the projected edge tile whole; the branch on the neighbour-tile coordinate is decided
    by `cond1_iff`; when taken it stores the projected nodes' row tile whole over the row tile, which the next load then
    reads back; the last store, whole again, is one aggregation step over what the row tile held at that moment. -/
theorem sound_kernel1 (c : Dev nD) (E : Set ℕ) (i : grid1.Coords)
    (arg3 : Memref sig .tc .vmem S1x128x64x64 .f32) (harg3 : arg3.IsWhole) (arg4 : Memref sig .tc .vmem S1x128x64x1 .f32) (harg4 : arg4.IsWhole)
    (arg5 : Memref sig .tc .vmem S1x128x128 .f32) (harg5 : arg5.IsWhole) (arg6 : Memref sig .tc .vmem S1x64x128 .f32) (harg6 : arg6.IsWhole)
    (arg7 : Memref sig .tc .vmem S128x64 .f32) (harg7 : arg7.IsWhole) (arg8 : Memref sig .tc .vmem S128 .f32) (harg8 : arg8.IsWhole)
    (arg9 : Memref sig .tc .vmem S128x128 .f32) (harg9 : arg9.IsWhole) (arg10 : Memref sig .tc .vmem S128x128 .f32) (harg10 : arg10.IsWhole)
    (arg11 : Memref sig .tc .vmem S128x128 .f32) (harg11 : arg11.IsWhole) (arg12 : Memref sig .tc .vmem S128 .f32) (harg12 : arg12.IsWhole)
    (arg13 : Memref sig .tc .vmem S1x128x64x128 .f32) (harg13 : arg13.IsWhole) (arg14 : Memref sig .tc .vmem S1x128x128 .f32) (harg14 : arg14.IsWhole)
    (x0 : Vec F S1x128x64x64 .f32) (x1 : Vec F S1x128x64x1 .f32) (x2 : Vec F S1x128x128 .f32) (x3 : Vec F S1x64x128 .f32)
    (x4 : Vec F S128x64 .f32) (x5 : Vec F S128 .f32) (x6 x7 x8 : Vec F S128x128 .f32) (x9 : Vec F S128 .f32)
    (d11 : Vec F S1x128x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6 ∗ owns (c : Thread nD τ) arg10 fullShare x7
        ∗ owns (c : Thread nD τ) arg11 fullShare x8 ∗ owns (c : Thread nD τ) arg12 fullShare x9 ∗ (∃ d, owns (c : Thread nD τ) arg13 fullShare d) ∗ owns (c : Thread nD τ) arg14 fullShare d11
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6 ∗ owns (c : Thread nD τ) arg10 fullShare x7
            ∗ owns (c : Thread nD τ) arg11 fullShare x8 ∗ owns (c : Thread nD τ) arg12 fullShare x9 ∗ owns (c : Thread nD τ) arg13 fullShare (out10 x0 x4 x5)
            ∗ owns (c : Thread nD τ) arg14 fullShare (out11 i x0 x1 x2 x3 x4 x5 x6 x7 x8 x9 d11)) -∗ K ⟨⟩))
      ⊢ wp frame (wpE (defs₀ (F := F)) Variants.none c none) E (cc1__mp_kernel i arg3 harg3 arg4 harg4 arg5 harg5 arg6 harg6 arg7 harg7 arg8 harg8 arg9 harg9 arg10 harg10 arg11 harg11 arg12 harg12 arg13 harg13 arg14 harg14) K := by
  by_cases h : (i 2).val = 0
  · have hc : cond1 i := (cond1_iff i).mpr h
    simp only [cc1__mp_kernel_eq_skeleton]; unfold cc1__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    subst hf0; subst hf1; subst hf2; subst hf3; subst hf4; subst hf5; subst hf6; subst hf7; subst hf8; subst hf9; subst hf11
    sl_exec (disch := first | exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      rw [read_writes_whole _ _ hz4]
      simp only [View.readAt_eq_ld, View.ld_unit_zero (S := S1x128x64x64) hz4, View.ld_unit_zero (S := S1x128x64x1) hz4, View.ld_unit_zero (S := S1x128x128) hz3, View.ld_unit_zero (S := S1x64x128) hz3, View.ld_unit_zero (S := S128x64) hz2, View.ld_unit_zero (S := S128x128) hz2, View.ld_unit_zero (S := S128) hz1]
      rfl
    iexists _; isplitr
    swap; · iexact H11
    ipureintro
    rw [read_writes_whole _ _ hz3]
    sl_unfold_run_names
    rw [View.readCov_unit_zero _ hz3]
    simp only [View.readAt_eq_ld, View.ld_unit_zero (S := S1x128x64x64) hz4, View.ld_unit_zero (S := S1x128x64x1) hz4, View.ld_unit_zero (S := S1x128x128) hz3, View.ld_unit_zero (S := S1x64x128) hz3, View.ld_unit_zero (S := S128x64) hz2, View.ld_unit_zero (S := S128x128) hz2, View.ld_unit_zero (S := S128) hz1]
    unfold out11; rw [if_pos h]
    rfl
  · have hc : ¬cond1 i := fun hc => h ((cond1_iff i).mp hc)
    simp only [cc1__mp_kernel_eq_skeleton]; unfold cc1__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    subst hf0; subst hf1; subst hf2; subst hf3; subst hf4; subst hf5; subst hf6; subst hf7; subst hf8; subst hf9; subst hf11
    sl_exec (disch := first | exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      rw [read_writes_whole _ _ hz4]
      simp only [View.readAt_eq_ld, View.ld_unit_zero (S := S1x128x64x64) hz4, View.ld_unit_zero (S := S1x128x64x1) hz4, View.ld_unit_zero (S := S1x128x128) hz3, View.ld_unit_zero (S := S1x64x128) hz3, View.ld_unit_zero (S := S128x64) hz2, View.ld_unit_zero (S := S128x128) hz2, View.ld_unit_zero (S := S128) hz1]
      rfl
    iexists _; isplitr
    swap; · iexact H11
    ipureintro
    rw [read_writes_whole _ _ hz3]
    sl_unfold_run_names
    simp only [View.readAt_eq_ld, View.ld_unit_zero (S := S1x128x64x64) hz4, View.ld_unit_zero (S := S1x128x64x1) hz4, View.ld_unit_zero (S := S1x128x128) hz3, View.ld_unit_zero (S := S1x64x128) hz3, View.ld_unit_zero (S := S128x64) hz2, View.ld_unit_zero (S := S128x128) hz2, View.ld_unit_zero (S := S128) hz1]
    unfold out11; rw [if_neg h]
    rfl

end Cert.Kernel.Hand

end
-- ==== Proof.WOblig.lean ====
/-
  The body obligation of each region: at every grid point the pipeline calls the body with each input window's staging
  buffer at that window's block and each output's at whatever it then holds; the body's triple gives back the inputs
  untouched and the outputs at the proof data's contents. For the carried row tile of region 1 the buffer holds, away
  from the first neighbour tile, what the body left at the point before; at the first neighbour tile the body resets it
  before reading it, so what it held does not matter.
-/
import proofs.«115202_j74612171866795_1_alg».proof.Proof.WOuts
import proofs.«115202_j74612171866795_1_alg».proof.Proof.Gen.Kernel.Launch
import proofs.«115202_j74612171866795_1_alg».proof.Proof.Gen.Kernel.Points
import proofs.«115202_j74612171866795_1_alg».proof.Proof.WData
import proofs.«115202_j74612171866795_1_alg».proof.Proof.WBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## Region 1 -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [outs11_eq V c t ((dat1 V c).before 11 t d11) (fun h => before1_11 V c t h d11)]
  iapply (sound_kernel1 c Set.univ (grid1.coords t) _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 11 t d11) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WFrames.lean ====
/-
  The frame: every weakly fair execution of the program terminates, nothing faulting, and every argument array ends as
  launched — the run of the three items, with each argument's buffer read off the last boundary's contents, which no
  item wrote.
-/
import proofs.«115202_j74612171866795_1_alg».proof.Proof.WOuts
import proofs.«115202_j74612171866795_1_alg».proof.Proof.Gen.Kernel.Launch
import proofs.«115202_j74612171866795_1_alg».proof.Proof.Gen.Kernel.Points
import proofs.«115202_j74612171866795_1_alg».proof.Proof.WRun
import proofs.«115202_j74612171866795_1_alg».proof.Proof.WOblig
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The run with both regions' body obligations supplied. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  run_all m (fun c => body_obligation0 (V1 m) c) (fun c => body_obligation1 (V2 m) c) ρ

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩)
    (run_main m ρ)

end Cert.Kernel.Hand

end
-- ==== Proof.Outs.lean ====
/-
  What each kernel body leaves in its output blocks, as pure functions of the blocks it reads.

  Region 0 (the node projection) has three windows: the node features' block `x0 : [1,512,128]`, the weight
  `x1 : [128,128]` and the output block; the body stores `x0 · x1ᵀ` (the payload `k0_pay1`) over the whole output block.

  Region 1 (edge projection and masked aggregation) has twelve windows, in the kernel's operand order:
  0 the edge features' tile `[1,128,64,64]`, 1 the mask's tile `[1,128,64,1]`, 2 the projected nodes' row tile `[1,128,128]`,
  3 their neighbour tile `[1,64,128]`, 4 the edge weight `[128,64]`, 5 its bias `[128]`, 6, 7, 8 the three square blocks of the
  message weight, 9 the message bias, 10 the projected edges' tile (output), 11 the new node features' row tile (output,
  carried along the neighbour axis). The body stores the projected edge tile (`k1_pay4`) whole; and, for the row tile, starts
  from the projected nodes' row tile when the neighbour-tile coordinate is 0 and otherwise from what the tile held, and adds
  the masked messages summed over this neighbour tile (`k1_pay2`).
-/
import proofs.«115202_j74612171866795_1_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- Region 0's output block: the node block times the transposed weight. -/
def out0 (x0 : Vec F S1x512x128 .f32) (x1 : Vec F S128x128 .f32) : Vec F S1x512x128 .f32 :=
  k0_pay1 x0 x1

/-- Region 1's projected-edge tile: the edge tile times the transposed edge weight, plus the bias. -/
def out10 (x0 : Vec F S1x128x64x64 .f32) (x4 : Vec F S128x64 .f32) (x5 : Vec F S128 .f32) : Vec F S1x128x64x128 .f32 :=
  k1_pay4 x0 x4 x5

/-- What the row tile is reset to at the first neighbour tile: the projected nodes' row tile. -/
def init11 (x2 : Vec F S1x128x128 .f32) : Vec F S1x128x128 .f32 :=
  k1_pay1 (k1_pay6 x2)

/-- One step of the aggregation: the row tile's contents `d` plus this neighbour tile's masked messages, summed over the tile. -/
def acc11 (x0 : Vec F S1x128x64x64 .f32) (x1 : Vec F S1x128x64x1 .f32) (x2 : Vec F S1x128x128 .f32) (x3 : Vec F S1x64x128 .f32)
    (x4 : Vec F S128x64 .f32) (x5 : Vec F S128 .f32) (x6 x7 x8 : Vec F S128x128 .f32) (x9 : Vec F S128 .f32)
    (d : Vec F S1x128x128 .f32) : Vec F S1x128x128 .f32 :=
  k1_pay2 (k1_pay5 x0 x4 x5 x8) (k1_pay6 x2) (k1_pay7 x3) (k1_pay8 x6) (k1_pay9 x7) x9 x1 d

/-- Region 1's row tile after the body at grid coordinates `i`, having held `d` before it: reset first when the
    neighbour-tile coordinate is 0, then one aggregation step. -/
def out11 (i : grid1.Coords) (x0 : Vec F S1x128x64x64 .f32) (x1 : Vec F S1x128x64x1 .f32) (x2 : Vec F S1x128x128 .f32) (x3 : Vec F S1x64x128 .f32)
    (x4 : Vec F S128x64 .f32) (x5 : Vec F S128 .f32) (x6 x7 x8 : Vec F S128x128 .f32) (x9 : Vec F S128 .f32)
    (d : Vec F S1x128x128 .f32) : Vec F S1x128x128 .f32 :=
  acc11 x0 x1 x2 x3 x4 x5 x6 x7 x8 x9 (if (i 2).val = 0 then init11 x2 else d)

end Cert.KernelIdeal.Hand

end
-- ==== Proof.Data.lean ====
/-
  The proof data of the two kernel regions, at a parameter `V`: the contents every buffer of the core holds when the
  region is entered.

  A window's block at a grid point is read off its array as the region finds it. An input window's staging buffer
  holds that block at every point, whether or not the pipeline fetched it there (an unfetched window's block index has
  not moved). Region 0 writes, at each of its four points, the node block times the transposed weight. Region 1 runs
  over a 4 × 4 × 8 grid (batch, row tile, neighbour tile; the last axis fastest): at every point it writes the
  projected edge tile, and it carries the new node features' row tile along the neighbour axis — reset to the
  projected nodes' row tile where the neighbour-tile coordinate is 0, one aggregation step added at every point,
  written back at the eighth. The projected nodes' array is read through two windows of region 1 (by rows of the
  receiving node and by rows of the neighbour): each holds a half share of it.
-/
import proofs.«115202_j74612171866795_1_alg».proof.Proof.Outs
import proofs.«115202_j74612171866795_1_alg».proof.Proof.Gen.KernelIdeal.Launch
import proofs.«115202_j74612171866795_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Region 0's proof data: inputs stay at their blocks, the output block is the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The neighbour-tile coordinate of a point is its position modulo 8. -/
theorem coord2 : ∀ t : Fin cfg1.N, ((grid1.coords t) 2).val = t.val % 8 :=
  (by decide +kernel : ∀ t : Fin grid1.N, ((grid1.coords t) 2).val = t.val % 8)

/-- The new node features' row tile after the body at position `n`: the body's step at that point over what the
    position before left (at a point whose neighbour-tile coordinate is 0 the step does not read it). -/
def outs11 (c : Dev nD) : (n : ℕ) → n < cfg1.N → Vec F S1x128x128 .f32
  | 0, hn => out11 (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (init11 (iblk1 V c 2 ⟨0, hn⟩))
  | n + 1, hn => out11 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outs11 c n (Nat.lt_of_succ_lt hn))

/-- At any point the carried tile is the body's step over `d`, for any `d` that is what the position before left
    unless the neighbour-tile coordinate is 0. -/
theorem outs11_eq (c : Dev nD) (t : Fin cfg1.N) (d : Vec F S1x128x128 .f32)
    (hd : t.val % 8 ≠ 0 → d = outs11 V c (t.val - 1) (Nat.lt_of_le_of_lt (Nat.sub_le _ _) t.isLt)) :
    outs11 V c t.val t.isLt = out11 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) d := by
  by_cases h : t.val % 8 = 0
  · have hc : ((grid1.coords t) 2).val = 0 := (coord2 t).trans h
    obtain ⟨n, hn⟩ := t
    cases n with
    | zero => unfold outs11 out11; rw [if_pos hc, if_pos hc]
    | succ n => unfold outs11 out11; rw [if_pos hc, if_pos hc]
  · obtain ⟨n, hn⟩ := t
    cases n with
    | zero => exact absurd (Nat.zero_mod _) h
    | succ n => rw [hd h]; rfl

/-- Region 1's proof data: inputs stay at their blocks; the projected edge tile; the carried row tile. The two
    windows on the projected nodes' array hold complementary half shares of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out10 (iblk1 V c 0 t) (iblk1 V c 4 t) (iblk1 V c 5 t)
    | ⟨11, _⟩ => outs11 V c t.val t.isLt
  Φ _ := Pipeline.ΦA spec1 c
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out10 (iblk1 V c 0 t) (iblk1 V c 4 t) (iblk1 V c 5 t) := by dsimp only [dat1]
theorem after1_11 (c : Dev nD) (t : Fin cfg1.N) : (dat1 V c).after 11 t = outs11 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- Away from the first neighbour tile the row tile's staging buffer holds what the body left at the point before: the
    buffer is written back only after the eighth neighbour tile. -/
theorem before1_11 (c : Dev nD) (t : Fin cfg1.N) (h0 : t.val % 8 ≠ 0) (d) :
    (dat1 V c).before 11 t d = outs11 V c (t.val - 1) (Nat.lt_of_le_of_lt (Nat.sub_le _ _) t.isLt) := by
  have hN : t.val < 128 := lt_of_lt_of_eq t.isLt (show cfg1.N = 128 from N_1)
  rw [Dat.before_out_kept _ 11 rfl t (by omega) (Bool.eq_false_iff.mpr fun h => by have := (flush1_11 _).mp h; dsimp only at this; omega)
    (fun _ => rfl) (fun _ _ => rfl)]
  dsimp only [dat1]

end Cert.KernelIdeal.Hand

end
-- ==== Proof.Arrays1.lean ====
/-
  Region 1's arrays and the buffers behind them. Its twelve windows stand on eleven distinct buffers: the projected
  nodes' array is read through two windows, by rows of the receiving node and by rows of the neighbour. Holding each of
  the eleven buffers whole is holding the twelve windows' arrays with that one buffer's ownership halved between its two
  windows, and back — as long as both halves speak of the same contents.
-/
import proofs.«115202_j74612171866795_1_alg».proof.Proof.Outs
import proofs.«115202_j74612171866795_1_alg».proof.Proof.Gen.KernelIdeal.Launch
import proofs.«115202_j74612171866795_1_alg».proof.Proof.Gen.KernelIdeal.Points
import proofs.«115202_j74612171866795_1_alg».proof.Proof.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's windows. -/
theorem refs1_eq : Finset.univ.image (Pipeline.arrRef spec1) = ([main_arg1, main_arg2, main_v3, main_arg4, main_arg5, main_v0, main_v1, main_v2, main_arg7, main_v4_0, main_v4_1] : List (Ref sig .tc)).toFinset := by decide

theorem refs1_nodup : ([main_arg1, main_arg2, main_v3, main_arg4, main_arg5, main_v0, main_v1, main_v2, main_arg7, main_v4_0, main_v4_1] : List (Ref sig .tc)).Nodup := by decide

/-- Each window's array is held at the full share, except the two windows on the projected nodes' array. -/
theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl
theorem share1_10 (c : Dev nD) : (dat1 V c).share 10 = fullShare := rfl
theorem share1_11 (c : Dev nD) : (dat1 V c).share 11 = fullShare := rfl

/-- The eleven buffers one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_arg2) ↦{fullShare} V' main_arg2) ∗ (((c : Thread nD τ).loc main_v3) ↦{fullShare} V' main_v3) ∗ (((c : Thread nD τ).loc main_arg4) ↦{fullShare} V' main_arg4) ∗ (((c : Thread nD τ).loc main_arg5) ↦{fullShare} V' main_arg5) ∗ (((c : Thread nD τ).loc main_v0) ↦{fullShare} V' main_v0) ∗ (((c : Thread nD τ).loc main_v1) ↦{fullShare} V' main_v1) ∗ (((c : Thread nD τ).loc main_v2) ↦{fullShare} V' main_v2) ∗ (((c : Thread nD τ).loc main_arg7) ↦{fullShare} V' main_arg7) ∗ (((c : Thread nD τ).loc main_v4_0) ↦{fullShare} V' main_v4_0) ∗ (((c : Thread nD τ).loc main_v4_1) ↦{fullShare} V' main_v4_1)) := by
  unfold Pipeline.arrBufs; exact BI.bigSep_eq_bigSepL_of_eq _ refs1_eq refs1_nodup _

/-- ENTRY: the eleven buffers whole, at contents the windows' arrays are read off, are region 1's arrays. -/
theorem arrays1_of_bufs (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  rw [arrBufs1_eq]
  unfold Dat.arrays
  rw [bigSep_W1]
  simp only [hG, share1_0, share1_1, share1_2, share1_3, share1_4, share1_5, share1_6, share1_7, share1_8, share1_9, share1_10, share1_11, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ, (arr_whole1 11).set_eq_univ]
  iintro ⟨H1, H2, H3, H4, H5, H6, H7, H8, H9, H10, H11⟩
  ihave H3 := (pointsTo_share (PosShare.mem_left_op_right fullShare)).1 $$ H3
  icases H3 with ⟨H3a, H3b⟩
  isplitl [H1]; · iexact H1
  isplitl [H2]; · iexact H2
  isplitl [H3a]; · iexact H3a
  isplitl [H3b]; · iexact H3b
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: region 1's arrays, at contents read off one valuation, are the eleven buffers whole at it. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (dat1 V c).arrays G ⊢ (Pipeline.arrBufs (Ix := Unit) (Name := ℕ) (U := UR sig nD τ) (Lvl := ℕ) spec1 c V' : sProp 𝕄) := by
  rw [arrBufs1_eq]
  unfold Dat.arrays
  rw [bigSep_W1]
  simp only [hG, share1_0, share1_1, share1_2, share1_3, share1_4, share1_5, share1_6, share1_7, share1_8, share1_9, share1_10, share1_11, (arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ, (arr_whole1 11).set_eq_univ]
  iintro ⟨H1, H2, H3a, H3b, H4, H5, H6, H7, H8, H9, H10, H11⟩
  ihave H3 := (pointsTo_share (PosShare.mem_left_op_right fullShare)).2 $$ [H3a H3b]
  · isplitl [H3a] <;> iassumption
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Hand

end
-- ==== Proof.Run.lean ====
/-
  The run of the whole program: a stretch of host operations (three column blocks cut out of the message weight),
  the node-projection region, the aggregation region.

  Between two items every buffer of a core holds a known array: the launch contents; then the three blocks written;
  then the projected nodes at what the first region's write-backs leave; then the projected edges and the new node
  features at what the second region's write-backs leave. Each region is entered from "every buffer at the contents
  before it" and left at "every buffer at the contents after it"; the generator register and the core's empty debt
  ride along. At the end every buffer is read against the last of these arrays; no item writes an argument.
-/
import proofs.«115202_j74612171866795_1_alg».proof.Proof.Outs
import proofs.«115202_j74612171866795_1_alg».proof.Proof.Gen.KernelIdeal.Launch
import proofs.«115202_j74612171866795_1_alg».proof.Proof.Gen.KernelIdeal.Points
import proofs.«115202_j74612171866795_1_alg».proof.Proof.Data
import proofs.«115202_j74612171866795_1_alg».proof.Proof.Arrays1
import proofs.«115202_j74612171866795_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs leave, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region: the projected edges and the new node features at what its write-backs leave, the rest
    as entered. -/
def W3 (c : Dev nD) : Valuation τ sig (Elt F) :=
  Function.update (Function.update (W2 m c) (Proc.devRef .tc main_v4_0) ((dat1 (V2 m) c).arrAt 10 cfg1.N))
    (Proc.devRef .tc main_v4_1) ((dat1 (V2 m) c).arrAt 11 cfg1.N)
theorem W3_v4_1 (c : Dev nD) : W3 m c (Proc.devRef .tc main_v4_1) = (dat1 (V2 m) c).arrAt 11 cfg1.N := by
  unfold W3; exact Function.update_self ..
theorem W3_v4_0 (c : Dev nD) : W3 m c (Proc.devRef .tc main_v4_0) = (dat1 (V2 m) c).arrAt 10 cfg1.N := by
  unfold W3
  rw [Function.update_of_ne (StableHlo.devRef_ne_of_ne (by decide) : (Proc.devRef .tc main_v4_0 : DevRef τ sig) ≠ Proc.devRef .tc main_v4_1)]
  exact Function.update_self ..
theorem W3_of_ne (c : Dev nD) (b : Ref sig .tc) (h0 : b ≠ main_v4_0) (h1 : b ≠ main_v4_1) :
    W3 m c (Proc.devRef .tc b) = W2 m c (Proc.devRef .tc b) := by
  unfold W3
  rw [Function.update_of_ne (StableHlo.devRef_ne_of_ne h1 : (Proc.devRef .tc b : DevRef τ sig) ≠ Proc.devRef .tc main_v4_1),
    Function.update_of_ne (StableHlo.devRef_ne_of_ne h0 : (Proc.devRef .tc b : DevRef τ sig) ≠ Proc.devRef .tc main_v4_0)]
abbrev V3 : (c : Dev nD) → (b : Ref sig .tc) → Buf (Elt F) ((c : Thread nD τ).loc b) := fun c b => W3 m c b

/-- At the second region's exit each window's array holds what the pipeline leaves: an input's array is never
    written, the two outputs are the updated buffers. -/
theorem hF1 (c : Dev nD) : ∀ w : Fin 12, (dat1 (V2 m) c).arrAt w cfg1.N = V3 m c (Pipeline.arrRef spec1 w) := fun
  | 0 => (((dat1 (V2 m) c).arrAt_in 0 rfl _).trans (A_eq1 (V2 m) c 0)).trans (W3_of_ne m c _ (by decide) (by decide)).symm
  | 1 => (((dat1 (V2 m) c).arrAt_in 1 rfl _).trans (A_eq1 (V2 m) c 1)).trans (W3_of_ne m c _ (by decide) (by decide)).symm
  | 2 => (((dat1 (V2 m) c).arrAt_in 2 rfl _).trans (A_eq1 (V2 m) c 2)).trans (W3_of_ne m c _ (by decide) (by decide)).symm
  | 3 => (((dat1 (V2 m) c).arrAt_in 3 rfl _).trans (A_eq1 (V2 m) c 3)).trans (W3_of_ne m c _ (by decide) (by decide)).symm
  | 4 => (((dat1 (V2 m) c).arrAt_in 4 rfl _).trans (A_eq1 (V2 m) c 4)).trans (W3_of_ne m c _ (by decide) (by decide)).symm
  | 5 => (((dat1 (V2 m) c).arrAt_in 5 rfl _).trans (A_eq1 (V2 m) c 5)).trans (W3_of_ne m c _ (by decide) (by decide)).symm
  | 6 => (((dat1 (V2 m) c).arrAt_in 6 rfl _).trans (A_eq1 (V2 m) c 6)).trans (W3_of_ne m c _ (by decide) (by decide)).symm
  | 7 => (((dat1 (V2 m) c).arrAt_in 7 rfl _).trans (A_eq1 (V2 m) c 7)).trans (W3_of_ne m c _ (by decide) (by decide)).symm
  | 8 => (((dat1 (V2 m) c).arrAt_in 8 rfl _).trans (A_eq1 (V2 m) c 8)).trans (W3_of_ne m c _ (by decide) (by decide)).symm
  | 9 => (((dat1 (V2 m) c).arrAt_in 9 rfl _).trans (A_eq1 (V2 m) c 9)).trans (W3_of_ne m c _ (by decide) (by decide)).symm
  | 10 => (W3_v4_0 m c).symm
  | 11 => (W3_v4_1 m c).symm
  | ⟨_ + 12, h⟩ => absurd h (Nat.not_lt.2 (Nat.le_add_left _ _))
theorem hrest1 (c : Dev nD) : ∀ b, b ∉ Finset.univ.image (Pipeline.arrRef spec1) → V3 m c b = V2 m c b :=
  fun b hb => W3_of_ne m c b (fun e => hb (Finset.mem_image.mpr ⟨10, Finset.mem_univ _, e.symm⟩)) (fun e => hb (Finset.mem_image.mpr ⟨11, Finset.mem_univ _, e.symm⟩))

/-! ## No item writes an argument -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide) (by decide)
    _ = W1 m c (Proc.devRef .tc main_arg0) := (W2_arr m c 0).trans (((dat0 (V1 m) c).arrAt_in 0 rfl _).trans (A_eq0 (V1 m) c 0))
    _ = m ((c : Thread nD τ).loc main_arg0) := Gen.V1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide) (by decide)
    _ = W1 m c (Proc.devRef .tc main_arg1) := W2_of_ne m c main_arg1 (by decide)
    _ = m ((c : Thread nD τ).loc main_arg1) := Gen.V1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide) (by decide)
    _ = W1 m c (Proc.devRef .tc main_arg2) := W2_of_ne m c main_arg2 (by decide)
    _ = m ((c : Thread nD τ).loc main_arg2) := Gen.V1_of m c main_arg2 (by decide)

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide) (by decide)
    _ = W1 m c (Proc.devRef .tc main_arg3) := (W2_arr m c 1).trans (((dat0 (V1 m) c).arrAt_in 1 rfl _).trans (A_eq0 (V1 m) c 1))
    _ = m ((c : Thread nD τ).loc main_arg3) := Gen.V1_of m c main_arg3 (by decide)

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide) (by decide)
    _ = W1 m c (Proc.devRef .tc main_arg4) := W2_of_ne m c main_arg4 (by decide)
    _ = m ((c : Thread nD τ).loc main_arg4) := Gen.V1_of m c main_arg4 (by decide)

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide) (by decide)
    _ = W1 m c (Proc.devRef .tc main_arg5) := W2_of_ne m c main_arg5 (by decide)
    _ = m ((c : Thread nD τ).loc main_arg5) := Gen.V1_of m c main_arg5 (by decide)

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide) (by decide)
    _ = W1 m c (Proc.devRef .tc main_arg6) := W2_of_ne m c main_arg6 (by decide)
    _ = m ((c : Thread nD τ).loc main_arg6) := Gen.V1_of m c main_arg6 (by decide)

theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide) (by decide)
    _ = W1 m c (Proc.devRef .tc main_arg7) := W2_of_ne m c main_arg7 (by decide)
    _ = m ((c : Thread nD τ).loc main_arg7) := Gen.V1_of m c main_arg7 (by decide)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core's debt, empty. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

variable (hb0 : ∀ c : Dev nD, BodyObligation (dat0 (F := F) (V1 m) c) (defs₀ (F := F)) Variants.none () Set.univ)
variable (hb1 : ∀ c : Dev nD, BodyObligation (dat1 (F := F) (V2 m) c) (defs₀ (F := F)) Variants.none () Set.univ)

set_option backward.isDefEq.respectTransparency.types false in
/-- The node-projection region: entered from every buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers of a core split into the buffers behind region 1's windows and the rest. -/
theorem split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec1 c V' ∗ Pipeline.unscopedRest spec1 c V') := by
  classical
  have hA : Finset.univ.image (Pipeline.arrRef spec1) ⊆ Finset.univ.filter fun b : Ref sig .tc => ¬ b.isScoped := by decide
  unfold unscopedBufs Pipeline.unscopedRest Pipeline.arrBufs
  rw [BI.bigSep_sdiff_split hA]
  rfl

set_option backward.isDefEq.respectTransparency.types false in
/-- The aggregation region: entered from every buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs (Ix := Unit) (Name := ℕ) (U := UR sig nD τ) (Lvl := ℕ) c (V2 m c) : sProp 𝕄)
        ⊢ iprop((pdats m 1 c).arrays ((pdats m 1 c).arrAt · 0) ∗ Pipeline.unscopedRest spec1 c (V2 m c)) := by
      rw [split1]
      exact sep_mono (arrays1_of_bufs (V2 m) c (V2 m c) _ fun w => A_eq1 (V2 m) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs (Ix := Unit) (Name := ℕ) (U := UR sig nD τ) (Lvl := ℕ) c (V3 m c) : sProp 𝕄) := by
      rw [split1]
      refine sep_mono (bufs_of_arrays1 (V2 m) c (V3 m c) _ (hF1 m c)) (Entails.of_eq ?_)
      unfold Pipeline.unscopedRest
      exact BI.bigSep_congr fun b hb => by rw [hrest1 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg hostOps0 hostOps0_sub Gen.hostOps0_fresh (W0 m)),
    .region (reg0 m hb0),
    .region (reg1 m hb1) ]
theorem main_run (c : Dev nD) : main (F := F) c = Pipeline.Seg.run (segs m hb0 hb1) := (main_chain c).trans (by chain_rfl)

include hb0 hb1 in
set_option backward.isDefEq.respectTransparency.types false in
/-- Every weakly fair execution of the program from memory `m` with zero counters terminates, nothing faulting, and in
    every final state each unscoped buffer of each core holds the last boundary's array. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m hb0 hb1)
    (fun c Q => by rw [main_run m hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.Body.lean ====
/-
  The two kernel bodies' Hoare triples. On whole staging memrefs, the inputs' at the blocks they hold and the outputs'
  as stated, each body runs to the continuation holding every input as it was and every output at the pure function of
  the blocks that Outs.lean names: every store of either body covers its whole block, so what a block ends at is the
  payload of the last store into it, and a load of a whole block reads the block itself.
-/
import proofs.«115202_j74612171866795_1_alg».proof.Proof.Outs
import proofs.«115202_j74612171866795_1_alg».proof.Proof.Gen.KernelIdeal.Launch
import proofs.«115202_j74612171866795_1_alg».proof.Proof.Gen.KernelIdeal.Skeleton
import proofs.«115202_j74612171866795_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The literal zero offsets of rank 1 to 4 are the zero function. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

section WholeBlock

variable {Val : EltTy → Type} [∀ e, Nonempty (Val e)] {sig' : RefSig} {κ : Kind} {sp : Space} {S : Shape} {e : EltTy}

/-- After a store of `w` through the whole-block rectangle, LAST, a buffer reads `w` whatever it held and whatever was stored before. -/
private theorem read_writes_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end WholeBlock

set_option maxHeartbeats 1000000 in
/-- Region 0's body: three whole-block loads and one whole-block store of the product over the output block. -/
theorem sound_kernel0 (c : Dev nD) (E : Set ℕ) (i : grid0.Coords)
    (arg1 : Memref sig .tc .vmem S1x512x128 .f32) (harg1 : arg1.IsWhole) (arg2 : Memref sig .tc .vmem S128x128 .f32) (harg2 : arg2.IsWhole)
    (arg3 : Memref sig .tc .vmem S1x512x128 .f32) (harg3 : arg3.IsWhole)
    (x0 : Vec F S1x512x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__xp_kernel i arg1 harg1 arg2 harg2 arg3 harg3) K := by
  simp only [cc0__xp_kernel_eq_skeleton]; unfold cc0__xp_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole _ _ hz3]
  simp only [View.readAt_eq_ld, View.ld_unit_zero (S := S1x512x128) hz3, View.ld_unit_zero (S := S128x128) hz2]
  rfl

/-- The condition of the second body's branch, from the grid coordinates. -/
private abbrev cond1 (i : grid1.Coords) : Prop :=
  (Scalar.cmpi .ne (Scalar.extui (Scalar.cmpi .eq (BitVec.ofNat 32 (i 2).val) 0#32)) 0#32) = 1#1

/-- It holds exactly when the third grid coordinate is 0 — decided over the eight values of that coordinate. -/
private theorem cond1_iff (i : grid1.Coords) : cond1 i ↔ (i 2).val = 0 := by
  have key : ∀ n : Fin 8, ((Scalar.cmpi .ne (Scalar.extui (Scalar.cmpi .eq (BitVec.ofNat 32 n.val) 0#32)) 0#32) = 1#1 ↔ n.val = 0) := by
    decide
  exact key (i 2)

set_option maxHeartbeats 4000000 in
/-- Region 1's body. Its part stores the projected edge tile whole; the branch on the neighbour-tile coordinate is decided
    by `cond1_iff`; when taken it stores the projected nodes' row tile whole over the row tile, which the next load then
    reads back; the last store, whole again, is one aggregation step over what the row tile held at that moment. -/
theorem sound_kernel1 (c : Dev nD) (E : Set ℕ) (i : grid1.Coords)
    (arg3 : Memref sig .tc .vmem S1x128x64x64 .f32) (harg3 : arg3.IsWhole) (arg4 : Memref sig .tc .vmem S1x128x64x1 .f32) (harg4 : arg4.IsWhole)
    (arg5 : Memref sig .tc .vmem S1x128x128 .f32) (harg5 : arg5.IsWhole) (arg6 : Memref sig .tc .vmem S1x64x128 .f32) (harg6 : arg6.IsWhole)
    (arg7 : Memref sig .tc .vmem S128x64 .f32) (harg7 : arg7.IsWhole) (arg8 : Memref sig .tc .vmem S128 .f32) (harg8 : arg8.IsWhole)
    (arg9 : Memref sig .tc .vmem S128x128 .f32) (harg9 : arg9.IsWhole) (arg10 : Memref sig .tc .vmem S128x128 .f32) (harg10 : arg10.IsWhole)
    (arg11 : Memref sig .tc .vmem S128x128 .f32) (harg11 : arg11.IsWhole) (arg12 : Memref sig .tc .vmem S128 .f32) (harg12 : arg12.IsWhole)
    (arg13 : Memref sig .tc .vmem S1x128x64x128 .f32) (harg13 : arg13.IsWhole) (arg14 : Memref sig .tc .vmem S1x128x128 .f32) (harg14 : arg14.IsWhole)
    (x0 : Vec F S1x128x64x64 .f32) (x1 : Vec F S1x128x64x1 .f32) (x2 : Vec F S1x128x128 .f32) (x3 : Vec F S1x64x128 .f32)
    (x4 : Vec F S128x64 .f32) (x5 : Vec F S128 .f32) (x6 x7 x8 : Vec F S128x128 .f32) (x9 : Vec F S128 .f32)
    (d11 : Vec F S1x128x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6 ∗ owns (c : Thread nD τ) arg10 fullShare x7
        ∗ owns (c : Thread nD τ) arg11 fullShare x8 ∗ owns (c : Thread nD τ) arg12 fullShare x9 ∗ (∃ d, owns (c : Thread nD τ) arg13 fullShare d) ∗ owns (c : Thread nD τ) arg14 fullShare d11
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6 ∗ owns (c : Thread nD τ) arg10 fullShare x7
            ∗ owns (c : Thread nD τ) arg11 fullShare x8 ∗ owns (c : Thread nD τ) arg12 fullShare x9 ∗ owns (c : Thread nD τ) arg13 fullShare (out10 x0 x4 x5)
            ∗ owns (c : Thread nD τ) arg14 fullShare (out11 i x0 x1 x2 x3 x4 x5 x6 x7 x8 x9 d11)) -∗ K ⟨⟩))
      ⊢ wp frame (wpE (defs₀ (F := F)) Variants.none c none) E (cc1__mp_kernel i arg3 harg3 arg4 harg4 arg5 harg5 arg6 harg6 arg7 harg7 arg8 harg8 arg9 harg9 arg10 harg10 arg11 harg11 arg12 harg12 arg13 harg13 arg14 harg14) K := by
  by_cases h : (i 2).val = 0
  · have hc : cond1 i := (cond1_iff i).mpr h
    simp only [cc1__mp_kernel_eq_skeleton]; unfold cc1__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    subst hf0; subst hf1; subst hf2; subst hf3; subst hf4; subst hf5; subst hf6; subst hf7; subst hf8; subst hf9; subst hf11
    sl_exec (disch := first | exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      rw [read_writes_whole _ _ hz4]
      simp only [View.readAt_eq_ld, View.ld_unit_zero (S := S1x128x64x64) hz4, View.ld_unit_zero (S := S1x128x64x1) hz4, View.ld_unit_zero (S := S1x128x128) hz3, View.ld_unit_zero (S := S1x64x128) hz3, View.ld_unit_zero (S := S128x64) hz2, View.ld_unit_zero (S := S128x128) hz2, View.ld_unit_zero (S := S128) hz1]
      rfl
    iexists _; isplitr
    swap; · iexact H11
    ipureintro
    rw [read_writes_whole _ _ hz3]
    sl_unfold_run_names
    rw [View.readCov_unit_zero _ hz3]
    simp only [View.readAt_eq_ld, View.ld_unit_zero (S := S1x128x64x64) hz4, View.ld_unit_zero (S := S1x128x64x1) hz4, View.ld_unit_zero (S := S1x128x128) hz3, View.ld_unit_zero (S := S1x64x128) hz3, View.ld_unit_zero (S := S128x64) hz2, View.ld_unit_zero (S := S128x128) hz2, View.ld_unit_zero (S := S128) hz1]
    unfold out11; rw [if_pos h]
    rfl
  · have hc : ¬cond1 i := fun hc => h ((cond1_iff i).mp hc)
    simp only [cc1__mp_kernel_eq_skeleton]; unfold cc1__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    subst hf0; subst hf1; subst hf2; subst hf3; subst hf4; subst hf5; subst hf6; subst hf7; subst hf8; subst hf9; subst hf11
    sl_exec (disch := first | exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      rw [read_writes_whole _ _ hz4]
      simp only [View.readAt_eq_ld, View.ld_unit_zero (S := S1x128x64x64) hz4, View.ld_unit_zero (S := S1x128x64x1) hz4, View.ld_unit_zero (S := S1x128x128) hz3, View.ld_unit_zero (S := S1x64x128) hz3, View.ld_unit_zero (S := S128x64) hz2, View.ld_unit_zero (S := S128x128) hz2, View.ld_unit_zero (S := S128) hz1]
      rfl
    iexists _; isplitr
    swap; · iexact H11
    ipureintro
    rw [read_writes_whole _ _ hz3]
    sl_unfold_run_names
    simp only [View.readAt_eq_ld, View.ld_unit_zero (S := S1x128x64x64) hz4, View.ld_unit_zero (S := S1x128x64x1) hz4, View.ld_unit_zero (S := S1x128x128) hz3, View.ld_unit_zero (S := S1x64x128) hz3, View.ld_unit_zero (S := S128x64) hz2, View.ld_unit_zero (S := S128x128) hz2, View.ld_unit_zero (S := S128) hz1]
    unfold out11; rw [if_neg h]
    rfl

end Cert.KernelIdeal.Hand

end
-- ==== Proof.Oblig.lean ====
/-
  The body obligation of each region: at every grid point the pipeline calls the body with each input window's staging
  buffer at that window's block and each output's at whatever it then holds; the body's triple gives back the inputs
  untouched and the outputs at the proof data's contents. For the carried row tile of region 1 the buffer holds, away
  from the first neighbour tile, what the body left at the point before; at the first neighbour tile the body resets it
  before reading it, so what it held does not matter.
-/
import proofs.«115202_j74612171866795_1_alg».proof.Proof.Outs
import proofs.«115202_j74612171866795_1_alg».proof.Proof.Gen.KernelIdeal.Launch
import proofs.«115202_j74612171866795_1_alg».proof.Proof.Gen.KernelIdeal.Points
import proofs.«115202_j74612171866795_1_alg».proof.Proof.Data
import proofs.«115202_j74612171866795_1_alg».proof.Proof.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## Region 1 -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [outs11_eq V c t ((dat1 V c).before 11 t d11) (fun h => before1_11 V c t h d11)]
  iapply (sound_kernel1 c Set.univ (grid1.coords t) _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 11 t d11) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Frames.lean ====
/-
  The frame: every weakly fair execution of the program terminates, nothing faulting, and every argument array ends as
  launched — the run of the three items, with each argument's buffer read off the last boundary's contents, which no
  item wrote.
-/
import proofs.«115202_j74612171866795_1_alg».proof.Proof.Outs
import proofs.«115202_j74612171866795_1_alg».proof.Proof.Gen.KernelIdeal.Launch
import proofs.«115202_j74612171866795_1_alg».proof.Proof.Gen.KernelIdeal.Points
import proofs.«115202_j74612171866795_1_alg».proof.Proof.Run
import proofs.«115202_j74612171866795_1_alg».proof.Proof.Oblig
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The run with both regions' body obligations supplied. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  run_all m (fun c => body_obligation0 (V1 m) c) (fun c => body_obligation1 (V2 m) c) ρ

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩)
    (run_main m ρ)

end Cert.KernelIdeal.Hand

end
-- ==== Proof.Spec.lean ====
/-
  The specification both programs are compared with: the layer's three results as functions of the eight argument
  arrays, index by index, over the extended reals.

  With x : [4,512,128], adj : [4,512,512,64], mask : [4,512,512,1], Wn : [128,128], We : [128,64], be : [128],
  Wm : [128,384] (three square blocks side by side), bm : [128]:
    xp(b,n,o)      = Σ_f x(b,n,f) · Wn(o,f)
    adjp(b,i,j,o)  = (Σ_e adj(b,i,j,e) · We(o,e)) + be(o)
    mi(b,n,p)      = Σ_o xp(b,n,o) · Wm(p,o)            mj(b,n,p) = Σ_o xp(b,n,o) · Wm(p,128+o)
    me(b,i,j,p)    = Σ_o adjp(b,i,j,o) · Wm(p,256+o)
    msg(b,i,j,p)   = ((mi(b,i,p) + mj(b,j,p)) + me(b,i,j,p)) + bm(p)
    newx(b,i,p)    = (Σ_j msg(b,i,j,p) · mask(b,i,j,0)) + xp(b,i,p)
  The results are newx, adjp and the mask itself. Addition and multiplication are the extended reals'; no law used to
  compare the programs with this needs a finite operand.
-/
import Idealize.ShloMosaic.PureOps.Ideal
import Idealize.ShloMosaic.Lib.ValueIdx

noncomputable section

open scoped BigOperators

namespace Cert.Spec

open Idealize.ShloMosaic Idealize.ShloMosaic.ValueIdx

/-- The argument arrays' index sets, by literal shape. -/
abbrev IX : Type := (⟨3, ![4, 512, 128]⟩ : Shape).Idx
abbrev IAdj : Type := (⟨4, ![4, 512, 512, 64]⟩ : Shape).Idx
abbrev IMask : Type := (⟨4, ![4, 512, 512, 1]⟩ : Shape).Idx
abbrev IWn : Type := (⟨2, ![128, 128]⟩ : Shape).Idx
abbrev IWe : Type := (⟨2, ![128, 64]⟩ : Shape).Idx
abbrev IVec : Type := (⟨1, ![128]⟩ : Shape).Idx
abbrev IWm : Type := (⟨2, ![128, 384]⟩ : Shape).Idx
abbrev IAdjp : Type := (⟨4, ![4, 512, 512, 128]⟩ : Shape).Idx

/-- Column `o` of block `k` (0, 1 or 2) of the message weight's 384 columns. -/
def col (k : Fin 3) (o : Fin 128) : Fin 384 := ⟨128 * k.val + o.val, by have := k.isLt; have := o.isLt; omega⟩

section

variable (x : IX → EReal) (adj : IAdj → EReal) (mask : IMask → EReal) (Wn : IWn → EReal) (We : IWe → EReal)
  (be : IVec → EReal) (Wm : IWm → EReal) (bm : IVec → EReal)

/-- The projected node features. -/
def xp (b : Fin 4) (n : Fin 512) (o : Fin 128) : EReal := ∑ f : Fin 128, x (ix3 b n f) * Wn (ix2 o f)

/-- The projected edge features. -/
def adjp (b : Fin 4) (i j : Fin 512) (o : Fin 128) : EReal := (∑ e : Fin 64, adj (ix4 b i j e) * We (ix2 o e)) + be (ix1 o)

/-- The receiving node's term of the message. -/
def mi (b : Fin 4) (n : Fin 512) (p : Fin 128) : EReal := ∑ o : Fin 128, xp x Wn b n o * Wm (ix2 p (col 0 o))

/-- The neighbour's term of the message. -/
def mj (b : Fin 4) (n : Fin 512) (p : Fin 128) : EReal := ∑ o : Fin 128, xp x Wn b n o * Wm (ix2 p (col 1 o))

/-- The edge's term of the message. -/
def me (b : Fin 4) (i j : Fin 512) (p : Fin 128) : EReal := ∑ o : Fin 128, adjp adj We be b i j o * Wm (ix2 p (col 2 o))

/-- The message from neighbour `j` to node `i`. -/
def msg (b : Fin 4) (i j : Fin 512) (p : Fin 128) : EReal :=
  ((mi x Wn Wm b i p + mj x Wn Wm b j p) + me adj We be Wm b i j p) + bm (ix1 p)

/-- The masked message. -/
def masked (b : Fin 4) (i j : Fin 512) (p : Fin 128) : EReal :=
  msg x adj Wn We be Wm bm b i j p * mask (ix4 b i j (0 : Fin 1))

/-- The new node features: the masked messages summed over the neighbours, plus the projected node. -/
def newx (b : Fin 4) (i : Fin 512) (p : Fin 128) : EReal :=
  (∑ j : Fin 512, masked x adj mask Wn We be Wm bm b i j p) + xp x Wn b i p

/-- The first result as an array. -/
def NEWX : IX → EReal := fun y => newx x adj mask Wn We be Wm bm (y 0) (y 1) (y 2)

/-- The second result as an array. -/
def ADJP : IAdjp → EReal := fun y => adjp adj We be (y 0) (y 1) (y 2) (y 3)

/-- The projected nodes as an array (what the first kernel region writes). -/
def XP : IX → EReal := fun y => xp x Wn (y 0) (y 1) (y 2)

end

end Cert.Spec

end
-- ==== Proof.Contents.lean ====
/-
  What the buffers hold where the two regions read them. No item before a region writes an argument, so the regions
  read the arguments as launched; the host stretch cuts the message weight's 384 columns into three blocks of 128, so
  entry (p, o) of block k is entry (p, 128·k + o) of the weight.
-/
import proofs.«115202_j74612171866795_1_alg».proof.Proof.Run
import proofs.«115202_j74612171866795_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ) (c : Dev nD)

theorem V1_arg0 : Hand.V1 m c main_arg0 = m ((c : Thread nD τ).loc main_arg0) := Gen.V1_of m c main_arg0 (by decide)
theorem V1_arg3 : Hand.V1 m c main_arg3 = m ((c : Thread nD τ).loc main_arg3) := Gen.V1_of m c main_arg3 (by decide)
theorem V2_arg1 : Hand.V2 m c main_arg1 = m ((c : Thread nD τ).loc main_arg1) :=
  (W2_of_ne m c main_arg1 (by decide)).trans (Gen.V1_of m c main_arg1 (by decide))
theorem V2_arg2 : Hand.V2 m c main_arg2 = m ((c : Thread nD τ).loc main_arg2) :=
  (W2_of_ne m c main_arg2 (by decide)).trans (Gen.V1_of m c main_arg2 (by decide))
theorem V2_arg4 : Hand.V2 m c main_arg4 = m ((c : Thread nD τ).loc main_arg4) :=
  (W2_of_ne m c main_arg4 (by decide)).trans (Gen.V1_of m c main_arg4 (by decide))
theorem V2_arg5 : Hand.V2 m c main_arg5 = m ((c : Thread nD τ).loc main_arg5) :=
  (W2_of_ne m c main_arg5 (by decide)).trans (Gen.V1_of m c main_arg5 (by decide))
theorem V2_arg7 : Hand.V2 m c main_arg7 = m ((c : Thread nD τ).loc main_arg7) :=
  (W2_of_ne m c main_arg7 (by decide)).trans (Gen.V1_of m c main_arg7 (by decide))

/-- The host stretch leaves in this buffer the block of the message weight's columns from 0 on. -/
theorem V1_v0 : Hand.V1 m c main_v0 = extractStridedSlice S128x128 ![0, 0] (m ((c : Thread nD τ).loc main_arg6)) slices_S128x384_S128x128_0_0 := by
  show StableHlo.after hostOps0 (W0 m c) (Proc.devRef .tc main_v0) = _
  after_results
theorem V2_v0_apply (p o : Fin 128) : Hand.V2 m c main_v0 (ix2 p o) = m ((c : Thread nD τ).loc main_arg6) (ix2 p (Cert.Spec.col 0 o)) := by
  rw [show Hand.V2 m c main_v0 = Hand.V1 m c main_v0 from W2_of_ne m c main_v0 (by decide), V1_v0]
  exact extractStridedSlice_apply ![0, 0] _ slices_S128x384_S128x128_0_0 (ix2 p o) (ix2 p (Cert.Spec.col 0 o)) (fun a => match a with
    | ⟨0, _⟩ => by show p.val = 0 + p.val; omega
    | ⟨1, _⟩ => by show 128 * 0 + o.val = 0 + o.val; omega)
/-- The host stretch leaves in this buffer the block of the message weight's columns from 128 on. -/
theorem V1_v1 : Hand.V1 m c main_v1 = extractStridedSlice S128x128 ![0, 128] (m ((c : Thread nD τ).loc main_arg6)) slices_S128x384_S128x128_0_128 := by
  show StableHlo.after hostOps0 (W0 m c) (Proc.devRef .tc main_v1) = _
  after_results
theorem V2_v1_apply (p o : Fin 128) : Hand.V2 m c main_v1 (ix2 p o) = m ((c : Thread nD τ).loc main_arg6) (ix2 p (Cert.Spec.col 1 o)) := by
  rw [show Hand.V2 m c main_v1 = Hand.V1 m c main_v1 from W2_of_ne m c main_v1 (by decide), V1_v1]
  exact extractStridedSlice_apply ![0, 128] _ slices_S128x384_S128x128_0_128 (ix2 p o) (ix2 p (Cert.Spec.col 1 o)) (fun a => match a with
    | ⟨0, _⟩ => by show p.val = 0 + p.val; omega
    | ⟨1, _⟩ => by show 128 * 1 + o.val = 128 + o.val; omega)
/-- The host stretch leaves in this buffer the block of the message weight's columns from 256 on. -/
theorem V1_v2 : Hand.V1 m c main_v2 = extractStridedSlice S128x128 ![0, 256] (m ((c : Thread nD τ).loc main_arg6)) slices_S128x384_S128x128_0_256 := by
  show StableHlo.after hostOps0 (W0 m c) (Proc.devRef .tc main_v2) = _
  after_results
theorem V2_v2_apply (p o : Fin 128) : Hand.V2 m c main_v2 (ix2 p o) = m ((c : Thread nD τ).loc main_arg6) (ix2 p (Cert.Spec.col 2 o)) := by
  rw [show Hand.V2 m c main_v2 = Hand.V1 m c main_v2 from W2_of_ne m c main_v2 (by decide), V1_v2]
  exact extractStridedSlice_apply ![0, 256] _ slices_S128x384_S128x128_0_256 (ix2 p o) (ix2 p (Cert.Spec.col 2 o)) (fun a => match a with
    | ⟨0, _⟩ => by show p.val = 0 + p.val; omega
    | ⟨1, _⟩ => by show 128 * 2 + o.val = 256 + o.val; omega)

/-- The second region reads the projected nodes as the first region's write-backs leave them. -/
theorem V2_v3 : Hand.V2 m c main_v3 = (dat0 (Hand.V1 m) c).arrAt 2 cfg0.N := W2_arr m c 2

end Cert.KernelIdeal.HandValue

end
-- ==== Proof.Coords.lean ====
/-
  Grid points as coordinates. Region 0 has four points, one per batch entry. Region 1 runs over batch × row tile ×
  neighbour tile = 4 × 4 × 8 points, the neighbour tile fastest: point t is (t / 32, (t / 8) mod 4, t mod 8). Row `ii` of
  row tile `i` (tiles of 128 rows) is row 128·i + ii of the 512; row `jj` of neighbour tile `j` (tiles of 64) is row 64·j + jj.
-/
import proofs.«115202_j74612171866795_1_alg».proof.Proof.Gen.KernelIdeal.Launch

namespace Cert.KernelIdeal.Hand

open Idealize.ShloMosaic Cert.KernelIdeal Cert.KernelIdeal.Gen

/-- Region 0's point as a batch entry. -/
def pt0 (t : Fin cfg0.N) : Fin 4 := ⟨t.val, lt_of_lt_of_eq t.isLt (show cfg0.N = 4 from N_0)⟩
/-- Region 1's point: its batch entry, -/
def pb (t : Fin cfg1.N) : Fin 4 := ⟨t.val / 32, by have := lt_of_lt_of_eq t.isLt (show cfg1.N = 128 from N_1); omega⟩
/-- its row tile, -/
def pi (t : Fin cfg1.N) : Fin 4 := ⟨t.val / 8 % 4, Nat.mod_lt _ (by decide)⟩
/-- its neighbour tile. -/
def pj (t : Fin cfg1.N) : Fin 8 := ⟨t.val % 8, Nat.mod_lt _ (by decide)⟩
/-- A row of a row tile among the 512 rows. -/
def row128 (i : Fin 4) (ii : Fin 128) : Fin 512 := ⟨128 * i.val + ii.val, by have := i.isLt; have := ii.isLt; omega⟩
/-- A row of a neighbour tile among the 512 rows. -/
def row64 (j : Fin 8) (jj : Fin 64) : Fin 512 := ⟨64 * j.val + jj.val, by have := j.isLt; have := jj.isLt; omega⟩

theorem pt0_val (t : Fin cfg0.N) : (pt0 t).val = t.val := rfl
theorem pb_val (t : Fin cfg1.N) : (pb t).val = t.val / 32 := rfl
theorem pi_val (t : Fin cfg1.N) : (pi t).val = t.val / 8 % 4 := rfl
theorem pj_val (t : Fin cfg1.N) : (pj t).val = t.val % 8 := rfl
theorem row128_val (i : Fin 4) (ii : Fin 128) : (row128 i ii).val = 128 * i.val + ii.val := rfl
theorem row64_val (j : Fin 8) (jj : Fin 64) : (row64 j jj).val = 64 * j.val + jj.val := rfl

end Cert.KernelIdeal.Hand
-- ==== Proof.Blocks.lean ====
/-
  From blocks to arrays, for the two kernel regions.

  A window's block at a grid point sits in its array, on each axis, at the block index times the block's size plus the
  coordinate inside the block. Region 0 has four points, point `t` the batch `t`; region 1 runs over a 4 × 4 × 8 grid
  (batch, row tile of 128 rows, neighbour tile of 64 rows; the last axis fastest), so point `t` is batch `t / 32`, row tile
  `t / 8 % 4` and neighbour tile `t % 8`. Read through these, every input block is the array at the global index, and
  every output array after its region is ONE function of the index as soon as what the body leaves in the block at
  each point that writes back is that function at the global index: the blocks of the points that write back cover the
  array.
-/
import proofs.«115202_j74612171866795_1_alg».proof.Proof.Outs
import proofs.«115202_j74612171866795_1_alg».proof.Proof.Gen.KernelIdeal.Launch
import proofs.«115202_j74612171866795_1_alg».proof.Proof.Gen.KernelIdeal.Points
import proofs.«115202_j74612171866795_1_alg».proof.Proof.Data
import proofs.«115202_j74612171866795_1_alg».proof.Proof.Coords
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (V : (c : Dev nD) → (b : Ref sig .tc) → Buf (Elt F) ((c : Thread nD τ).loc b))

/-! ## The block indices, decided over the grids -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, _)

/-! ## Region 0: the input blocks at an index -/

theorem iblk0_0_apply (c : Dev nD) (t : Fin cfg0.N) (n : Fin 512) (f : Fin 128) :
    iblk0 V c 0 t (ix3 (0 : Fin 1) n f) = V c main_arg0 (ix3 (pt0 t) n f) := by
  obtain ⟨e0, e1, e2⟩ := idx0_0 t
  unfold iblk0
  rw [View.read_apply]
  show V c main_arg0 _ = V c main_arg0 _
  congr 1
  funext a
  apply Fin.ext
  match a with
  | ⟨0, _⟩ => show win0_0.index t (0 : Fin 3) * 1 + 1 * 0 = t.val; omega
  | ⟨1, _⟩ => show win0_0.index t (1 : Fin 3) * 512 + 1 * n.val = n.val; omega
  | ⟨2, _⟩ => show win0_0.index t (2 : Fin 3) * 128 + 1 * f.val = f.val; omega

theorem iblk0_1_apply (c : Dev nD) (t : Fin cfg0.N) (o f : Fin 128) :
    iblk0 V c 1 t (ix2 o f) = V c main_arg3 (ix2 o f) := by
  obtain ⟨e0, e1⟩ := idx0_1 t
  unfold iblk0
  rw [View.read_apply]
  show V c main_arg3 _ = V c main_arg3 _
  congr 1
  funext a
  apply Fin.ext
  match a with
  | ⟨0, _⟩ => show win0_1.index t (0 : Fin 2) * 128 + 1 * o.val = o.val; omega
  | ⟨1, _⟩ => show win0_1.index t (1 : Fin 2) * 128 + 1 * f.val = f.val; omega

/-! ## Region 1: the block indices, decided over the grid -/

theorem idx1_0 : ∀ t : Fin cfg1.N, win1_0.index t (0 : Fin 4) = t.val / 32 ∧ win1_0.index t (1 : Fin 4) = t.val / 8 % 4
    ∧ win1_0.index t (2 : Fin 4) = t.val % 8 ∧ win1_0.index t (3 : Fin 4) = 0 :=
  (by decide +kernel : ∀ t : Fin grid1.N, _)
theorem idx1_1 : ∀ t : Fin cfg1.N, win1_1.index t (0 : Fin 4) = t.val / 32 ∧ win1_1.index t (1 : Fin 4) = t.val / 8 % 4
    ∧ win1_1.index t (2 : Fin 4) = t.val % 8 ∧ win1_1.index t (3 : Fin 4) = 0 :=
  (by decide +kernel : ∀ t : Fin grid1.N, _)
theorem idx1_2 : ∀ t : Fin cfg1.N, win1_2.index t (0 : Fin 3) = t.val / 32 ∧ win1_2.index t (1 : Fin 3) = t.val / 8 % 4
    ∧ win1_2.index t (2 : Fin 3) = 0 :=
  (by decide +kernel : ∀ t : Fin grid1.N, _)
theorem idx1_3 : ∀ t : Fin cfg1.N, win1_3.index t (0 : Fin 3) = t.val / 32 ∧ win1_3.index t (1 : Fin 3) = t.val % 8
    ∧ win1_3.index t (2 : Fin 3) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 1) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 1) = 0 :=
  (by decide +kernel : ∀ t : Fin grid1.N, _)
theorem idx1_10 : ∀ t : Fin cfg1.N, win1_10.index t (0 : Fin 4) = t.val / 32 ∧ win1_10.index t (1 : Fin 4) = t.val / 8 % 4
    ∧ win1_10.index t (2 : Fin 4) = t.val % 8 ∧ win1_10.index t (3 : Fin 4) = 0 :=
  (by decide +kernel : ∀ t : Fin grid1.N, _)
theorem idx1_11 : ∀ t : Fin cfg1.N, win1_11.index t (0 : Fin 3) = t.val / 32 ∧ win1_11.index t (1 : Fin 3) = t.val / 8 % 4
    ∧ win1_11.index t (2 : Fin 3) = 0 :=
  (by decide +kernel : ∀ t : Fin grid1.N, _)

/-! ## Region 1: the input blocks at an index -/

theorem iblk1_0_apply (c : Dev nD) (t : Fin cfg1.N) (ii : Fin 128) (jj : Fin 64) (e : Fin 64) :
    iblk1 V c 0 t (ix4 (0 : Fin 1) ii jj e) = V c main_arg1 (ix4 (pb t) (row128 (pi t) ii) (row64 (pj t) jj) e) := by
  obtain ⟨e0, e1, e2, e3⟩ := idx1_0 t
  unfold iblk1
  rw [View.read_apply]
  show V c main_arg1 _ = V c main_arg1 _
  congr 1
  funext a
  apply Fin.ext
  match a with
  | ⟨0, _⟩ => show win1_0.index t (0 : Fin 4) * 1 + 1 * 0 = t.val / 32; omega
  | ⟨1, _⟩ => show win1_0.index t (1 : Fin 4) * 128 + 1 * ii.val = 128 * (t.val / 8 % 4) + ii.val; omega
  | ⟨2, _⟩ => show win1_0.index t (2 : Fin 4) * 64 + 1 * jj.val = 64 * (t.val % 8) + jj.val; omega
  | ⟨3, _⟩ => show win1_0.index t (3 : Fin 4) * 64 + 1 * e.val = e.val; omega

theorem iblk1_1_apply (c : Dev nD) (t : Fin cfg1.N) (ii : Fin 128) (jj : Fin 64) :
    iblk1 V c 1 t (ix4 (0 : Fin 1) ii jj (0 : Fin 1)) = V c main_arg2 (ix4 (pb t) (row128 (pi t) ii) (row64 (pj t) jj) (0 : Fin 1)) := by
  obtain ⟨e0, e1, e2, e3⟩ := idx1_1 t
  unfold iblk1
  rw [View.read_apply]
  show V c main_arg2 _ = V c main_arg2 _
  congr 1
  funext a
  apply Fin.ext
  match a with
  | ⟨0, _⟩ => show win1_1.index t (0 : Fin 4) * 1 + 1 * 0 = t.val / 32; omega
  | ⟨1, _⟩ => show win1_1.index t (1 : Fin 4) * 128 + 1 * ii.val = 128 * (t.val / 8 % 4) + ii.val; omega
  | ⟨2, _⟩ => show win1_1.index t (2 : Fin 4) * 64 + 1 * jj.val = 64 * (t.val % 8) + jj.val; omega
  | ⟨3, _⟩ => show win1_1.index t (3 : Fin 4) * 1 + 1 * 0 = 0; omega

theorem iblk1_2_apply (c : Dev nD) (t : Fin cfg1.N) (ii o : Fin 128) :
    iblk1 V c 2 t (ix3 (0 : Fin 1) ii o) = V c main_v3 (ix3 (pb t) (row128 (pi t) ii) o) := by
  obtain ⟨e0, e1, e2⟩ := idx1_2 t
  unfold iblk1
  rw [View.read_apply]
  show V c main_v3 _ = V c main_v3 _
  congr 1
  funext a
  apply Fin.ext
  match a with
  | ⟨0, _⟩ => show win1_2.index t (0 : Fin 3) * 1 + 1 * 0 = t.val / 32; omega
  | ⟨1, _⟩ => show win1_2.index t (1 : Fin 3) * 128 + 1 * ii.val = 128 * (t.val / 8 % 4) + ii.val; omega
  | ⟨2, _⟩ => show win1_2.index t (2 : Fin 3) * 128 + 1 * o.val = o.val; omega

theorem iblk1_3_apply (c : Dev nD) (t : Fin cfg1.N) (jj : Fin 64) (o : Fin 128) :
    iblk1 V c 3 t (ix3 (0 : Fin 1) jj o) = V c main_v3 (ix3 (pb t) (row64 (pj t) jj) o) := by
  obtain ⟨e0, e1, e2⟩ := idx1_3 t
  unfold iblk1
  rw [View.read_apply]
  show V c main_v3 _ = V c main_v3 _
  congr 1
  funext a
  apply Fin.ext
  match a with
  | ⟨0, _⟩ => show win1_3.index t (0 : Fin 3) * 1 + 1 * 0 = t.val / 32; omega
  | ⟨1, _⟩ => show win1_3.index t (1 : Fin 3) * 64 + 1 * jj.val = 64 * (t.val % 8) + jj.val; omega
  | ⟨2, _⟩ => show win1_3.index t (2 : Fin 3) * 128 + 1 * o.val = o.val; omega

/-! ## Region 1: the windows whose block is the whole array -/

theorem iblk1_4_apply (c : Dev nD) (t : Fin cfg1.N) (o : Fin 128) (e : Fin 64) :
    iblk1 V c 4 t (ix2 o e) = V c main_arg4 (ix2 o e) := by
  obtain ⟨e0, e1⟩ := idx1_4 t
  unfold iblk1
  rw [View.read_apply]
  show V c main_arg4 _ = V c main_arg4 _
  congr 1
  funext a
  apply Fin.ext
  match a with
  | ⟨0, _⟩ => show win1_4.index t (0 : Fin 2) * 128 + 1 * o.val = o.val; omega
  | ⟨1, _⟩ => show win1_4.index t (1 : Fin 2) * 64 + 1 * e.val = e.val; omega

theorem iblk1_5_apply (c : Dev nD) (t : Fin cfg1.N) (o : Fin 128) :
    iblk1 V c 5 t (ix1 o) = V c main_arg5 (ix1 o) := by
  have e0 := idx1_5 t
  unfold iblk1
  rw [View.read_apply]
  show V c main_arg5 _ = V c main_arg5 _
  congr 1
  funext a
  apply Fin.ext
  match a with
  | ⟨0, _⟩ => show win1_5.index t (0 : Fin 1) * 128 + 1 * o.val = o.val; omega

theorem iblk1_6_apply (c : Dev nD) (t : Fin cfg1.N) (p : Fin 128) (o : Fin 128) :
    iblk1 V c 6 t (ix2 p o) = V c main_v0 (ix2 p o) := by
  obtain ⟨e0, e1⟩ := idx1_6 t
  unfold iblk1
  rw [View.read_apply]
  show V c main_v0 _ = V c main_v0 _
  congr 1
  funext a
  apply Fin.ext
  match a with
  | ⟨0, _⟩ => show win1_6.index t (0 : Fin 2) * 128 + 1 * p.val = p.val; omega
  | ⟨1, _⟩ => show win1_6.index t (1 : Fin 2) * 128 + 1 * o.val = o.val; omega

theorem iblk1_7_apply (c : Dev nD) (t : Fin cfg1.N) (p : Fin 128) (o : Fin 128) :
    iblk1 V c 7 t (ix2 p o) = V c main_v1 (ix2 p o) := by
  obtain ⟨e0, e1⟩ := idx1_7 t
  unfold iblk1
  rw [View.read_apply]
  show V c main_v1 _ = V c main_v1 _
  congr 1
  funext a
  apply Fin.ext
  match a with
  | ⟨0, _⟩ => show win1_7.index t (0 : Fin 2) * 128 + 1 * p.val = p.val; omega
  | ⟨1, _⟩ => show win1_7.index t (1 : Fin 2) * 128 + 1 * o.val = o.val; omega

theorem iblk1_8_apply (c : Dev nD) (t : Fin cfg1.N) (p : Fin 128) (o : Fin 128) :
    iblk1 V c 8 t (ix2 p o) = V c main_v2 (ix2 p o) := by
  obtain ⟨e0, e1⟩ := idx1_8 t
  unfold iblk1
  rw [View.read_apply]
  show V c main_v2 _ = V c main_v2 _
  congr 1
  funext a
  apply Fin.ext
  match a with
  | ⟨0, _⟩ => show win1_8.index t (0 : Fin 2) * 128 + 1 * p.val = p.val; omega
  | ⟨1, _⟩ => show win1_8.index t (1 : Fin 2) * 128 + 1 * o.val = o.val; omega

theorem iblk1_9_apply (c : Dev nD) (t : Fin cfg1.N) (p : Fin 128) :
    iblk1 V c 9 t (ix1 p) = V c main_arg7 (ix1 p) := by
  have e0 := idx1_9 t
  unfold iblk1
  rw [View.read_apply]
  show V c main_arg7 _ = V c main_arg7 _
  congr 1
  funext a
  apply Fin.ext
  match a with
  | ⟨0, _⟩ => show win1_9.index t (0 : Fin 1) * 128 + 1 * p.val = p.val; omega

/-! ## Region 0: the output array as one function -/

/-- What a point of region 0 writes back is its block of `G`, when the body leaves `G` at the global index. -/
theorem flushed0_2_eq (c : Dev nD) (G : (⟨3, ![4, 512, 128]⟩ : Shape).Idx → Elt F .f32)
    (hG : ∀ (t : Fin cfg0.N) (n : Fin 512) (o : Fin 128), (dat0 V c).after 2 t (ix3 (0 : Fin 1) n o) = G (ix3 (pt0 t) n o))
    (t : Fin cfg0.N) :
    (dat0 V c).flushed 2 t = ((cfg0.win 2).blk t).view.read (Elt F) G := by
  obtain ⟨e0, e1, e2⟩ := idx0_2 t
  show (cfg0.win 2).cut (grid0.coords t) ((dat0 V c).after 2 t) = _
  funext y
  rw [View.read_apply]
  have h0 : (y 0).val < 1 := (y 0).isLt
  have hy : (cfg0.win 2).xinj (grid0.coords t) y = ix3 (0 : Fin 1) (y 1) (y 2) := by
    funext a
    match a with
    | ⟨0, _⟩ => exact Fin.ext (show (y 0).val = 0 by omega)
    | ⟨1, _⟩ => rfl
    | ⟨2, _⟩ => rfl
  refine (congrArg ((dat0 V c).after 2 t) hy).trans ((hG t (y 1) (y 2)).trans (congrArg G ?_))
  funext a
  apply Fin.ext
  match a with
  | ⟨0, _⟩ => show t.val = win0_2.index t (0 : Fin 3) * 1 + 1 * (y 0).val; omega
  | ⟨1, _⟩ => show (y 1).val = win0_2.index t (1 : Fin 3) * 512 + 1 * (y 1).val; omega
  | ⟨2, _⟩ => show (y 2).val = win0_2.index t (2 : Fin 3) * 128 + 1 * (y 2).val; omega

/-- The projected nodes' array after region 0 is `G`, when at every point the body leaves `G` at the global index. -/
theorem arr0_2 (c : Dev nD) (G : (⟨3, ![4, 512, 128]⟩ : Shape).Idx → Elt F .f32)
    (hG : ∀ (t : Fin cfg0.N) (n : Fin 512) (o : Fin 128), (dat0 V c).after 2 t (ix3 (0 : Fin 1) n o) = G (ix3 (pt0 t) n o)) :
    (dat0 V c).arrAt 2 cfg0.N = G := by
  refine (dat0 V c).arrAt_eq_of_cover 2 G (fun t _ => flushed0_2_eq V c G hG t) fun i => ?_
  have h0 : (i 0).val < 4 := (i 0).isLt
  have h1 : (i 1).val < 512 := (i 1).isLt
  have h2 : (i 2).val < 128 := (i 2).isLt
  let t : Fin cfg0.N := ⟨(i 0).val, lt_of_lt_of_eq h0 (show cfg0.N = 4 from N_0).symm⟩
  obtain ⟨e0, e1, e2⟩ := idx0_2 t
  have ht : t.val = (i 0).val := rfl
  refine ⟨t, flush0_2 t, ?_⟩
  show i ∈ ((View.whole main_v3).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 128 ≤ (i 2).val ∧ (i 2).val < win0_2.index t (2 : Fin 3) * 128 + 128; omega

/-! ## Region 1: the output arrays as one function each -/

/-- What a point of region 1 writes back to the projected edges is its block of `G`. -/
theorem flushed1_10_eq (c : Dev nD) (G : (⟨4, ![4, 512, 512, 128]⟩ : Shape).Idx → Elt F .f32)
    (hG : ∀ (t : Fin cfg1.N) (ii : Fin 128) (jj : Fin 64) (o : Fin 128),
      (dat1 V c).after 10 t (ix4 (0 : Fin 1) ii jj o) = G (ix4 (pb t) (row128 (pi t) ii) (row64 (pj t) jj) o))
    (t : Fin cfg1.N) :
    (dat1 V c).flushed 10 t = ((cfg1.win 10).blk t).view.read (Elt F) G := by
  obtain ⟨e0, e1, e2, e3⟩ := idx1_10 t
  show (cfg1.win 10).cut (grid1.coords t) ((dat1 V c).after 10 t) = _
  funext y
  rw [View.read_apply]
  have h0 : (y 0).val < 1 := (y 0).isLt
  have hy : (cfg1.win 10).xinj (grid1.coords t) y = ix4 (0 : Fin 1) (y 1) (y 2) (y 3) := by
    funext a
    match a with
    | ⟨0, _⟩ => exact Fin.ext (show (y 0).val = 0 by omega)
    | ⟨1, _⟩ => rfl
    | ⟨2, _⟩ => rfl
    | ⟨3, _⟩ => rfl
  refine (congrArg ((dat1 V c).after 10 t) hy).trans ((hG t (y 1) (y 2) (y 3)).trans (congrArg G ?_))
  funext a
  apply Fin.ext
  match a with
  | ⟨0, _⟩ => show t.val / 32 = win1_10.index t (0 : Fin 4) * 1 + 1 * (y 0).val; omega
  | ⟨1, _⟩ => show 128 * (t.val / 8 % 4) + (y 1).val = win1_10.index t (1 : Fin 4) * 128 + 1 * (y 1).val; omega
  | ⟨2, _⟩ => show 64 * (t.val % 8) + (y 2).val = win1_10.index t (2 : Fin 4) * 64 + 1 * (y 2).val; omega
  | ⟨3, _⟩ => show (y 3).val = win1_10.index t (3 : Fin 4) * 128 + 1 * (y 3).val; omega

/-- The projected edges' array after region 1 is `G`, when at every point the body leaves `G` at the global index. -/
theorem arr1_10 (c : Dev nD) (G : (⟨4, ![4, 512, 512, 128]⟩ : Shape).Idx → Elt F .f32)
    (hG : ∀ (t : Fin cfg1.N) (ii : Fin 128) (jj : Fin 64) (o : Fin 128),
      (dat1 V c).after 10 t (ix4 (0 : Fin 1) ii jj o) = G (ix4 (pb t) (row128 (pi t) ii) (row64 (pj t) jj) o)) :
    (dat1 V c).arrAt 10 cfg1.N = G := by
  refine (dat1 V c).arrAt_eq_of_cover 10 G (fun t _ => flushed1_10_eq V c G hG t) fun i => ?_
  have h0 : (i 0).val < 4 := (i 0).isLt
  have h1 : (i 1).val < 512 := (i 1).isLt
  have h2 : (i 2).val < 512 := (i 2).isLt
  have h3 : (i 3).val < 128 := (i 3).isLt
  let t : Fin cfg1.N := ⟨32 * (i 0).val + 8 * ((i 1).val / 128) + (i 2).val / 64,
    lt_of_lt_of_eq (by omega : 32 * (i 0).val + 8 * ((i 1).val / 128) + (i 2).val / 64 < 128) (show cfg1.N = 128 from N_1).symm⟩
  obtain ⟨e0, e1, e2, e3⟩ := idx1_10 t
  have ht : t.val = 32 * (i 0).val + 8 * ((i 1).val / 128) + (i 2).val / 64 := rfl
  refine ⟨t, flush1_10 t, ?_⟩
  show i ∈ ((View.whole main_v4_0).slice (win1_10.rect t)).set
  rw [View.set_slice_whole, Rect.mem_set_unit]
  intro a
  match a with
  | ⟨0, _⟩ => show win1_10.index t (0 : Fin 4) * 1 ≤ (i 0).val ∧ (i 0).val < win1_10.index t (0 : Fin 4) * 1 + 1; omega
  | ⟨1, _⟩ => show win1_10.index t (1 : Fin 4) * 128 ≤ (i 1).val ∧ (i 1).val < win1_10.index t (1 : Fin 4) * 128 + 128; omega
  | ⟨2, _⟩ => show win1_10.index t (2 : Fin 4) * 64 ≤ (i 2).val ∧ (i 2).val < win1_10.index t (2 : Fin 4) * 64 + 64; omega
  | ⟨3, _⟩ => show win1_10.index t (3 : Fin 4) * 128 ≤ (i 3).val ∧ (i 3).val < win1_10.index t (3 : Fin 4) * 128 + 128; omega

/-- What a point at the last neighbour tile writes back to the new node features is its block of `G`. -/
theorem flushed1_11_eq (c : Dev nD) (G : (⟨3, ![4, 512, 128]⟩ : Shape).Idx → Elt F .f32)
    (hG : ∀ (t : Fin cfg1.N), t.val % 8 = 7 → ∀ (ii p : Fin 128),
      (dat1 V c).after 11 t (ix3 (0 : Fin 1) ii p) = G (ix3 (pb t) (row128 (pi t) ii) p))
    (t : Fin cfg1.N) (h7 : t.val % 8 = 7) :
    (dat1 V c).flushed 11 t = ((cfg1.win 11).blk t).view.read (Elt F) G := by
  obtain ⟨e0, e1, e2⟩ := idx1_11 t
  show (cfg1.win 11).cut (grid1.coords t) ((dat1 V c).after 11 t) = _
  funext y
  rw [View.read_apply]
  have h0 : (y 0).val < 1 := (y 0).isLt
  have hy : (cfg1.win 11).xinj (grid1.coords t) y = ix3 (0 : Fin 1) (y 1) (y 2) := by
    funext a
    match a with
    | ⟨0, _⟩ => exact Fin.ext (show (y 0).val = 0 by omega)
    | ⟨1, _⟩ => rfl
    | ⟨2, _⟩ => rfl
  refine (congrArg ((dat1 V c).after 11 t) hy).trans ((hG t h7 (y 1) (y 2)).trans (congrArg G ?_))
  funext a
  apply Fin.ext
  match a with
  | ⟨0, _⟩ => show t.val / 32 = win1_11.index t (0 : Fin 3) * 1 + 1 * (y 0).val; omega
  | ⟨1, _⟩ => show 128 * (t.val / 8 % 4) + (y 1).val = win1_11.index t (1 : Fin 3) * 128 + 1 * (y 1).val; omega
  | ⟨2, _⟩ => show (y 2).val = win1_11.index t (2 : Fin 3) * 128 + 1 * (y 2).val; omega

/-- The new node features' array after region 1 is `G`, when at every point of the last neighbour tile — the points
    that write the row tile back — the body leaves `G` at the global index. -/
theorem arr1_11 (c : Dev nD) (G : (⟨3, ![4, 512, 128]⟩ : Shape).Idx → Elt F .f32)
    (hG : ∀ (t : Fin cfg1.N), t.val % 8 = 7 → ∀ (ii p : Fin 128),
      (dat1 V c).after 11 t (ix3 (0 : Fin 1) ii p) = G (ix3 (pb t) (row128 (pi t) ii) p)) :
    (dat1 V c).arrAt 11 cfg1.N = G := by
  refine (dat1 V c).arrAt_eq_of_cover 11 G (fun t hf => flushed1_11_eq V c G hG t ((flush1_11 t).mp hf)) fun i => ?_
  have h0 : (i 0).val < 4 := (i 0).isLt
  have h1 : (i 1).val < 512 := (i 1).isLt
  have h2 : (i 2).val < 128 := (i 2).isLt
  let t : Fin cfg1.N := ⟨32 * (i 0).val + 8 * ((i 1).val / 128) + 7,
    lt_of_lt_of_eq (by omega : 32 * (i 0).val + 8 * ((i 1).val / 128) + 7 < 128) (show cfg1.N = 128 from N_1).symm⟩
  obtain ⟨e0, e1, e2⟩ := idx1_11 t
  have ht : t.val = 32 * (i 0).val + 8 * ((i 1).val / 128) + 7 := rfl
  refine ⟨t, (flush1_11 t).mpr (by omega), ?_⟩
  show i ∈ ((View.whole main_v4_1).slice (win1_11.rect t)).set
  rw [View.set_slice_whole, Rect.mem_set_unit]
  intro a
  match a with
  | ⟨0, _⟩ => show win1_11.index t (0 : Fin 3) * 1 ≤ (i 0).val ∧ (i 0).val < win1_11.index t (0 : Fin 3) * 1 + 1; omega
  | ⟨1, _⟩ => show win1_11.index t (1 : Fin 3) * 128 ≤ (i 1).val ∧ (i 1).val < win1_11.index t (1 : Fin 3) * 128 + 128; omega
  | ⟨2, _⟩ => show win1_11.index t (2 : Fin 3) * 128 ≤ (i 2).val ∧ (i 2).val < win1_11.index t (2 : Fin 3) * 128 + 128; omega

end Cert.KernelIdeal.Hand

end
-- ==== Proof.KernelValue.lean ====
/-
  What the kernel bodies' stored values are at an entry, over the extended reals (every operation exact, a change of
  float format the identity).

  Region 0 stores the node block times the transposed weight. Region 1 first projects the edge tile: the `[128, 64, 64]`
  tile is flattened row-major to `[8192, 64]` (row `64·i + j` is the edge `(i, j)`), multiplied by the transposed edge
  weight, and the bias is added to every row; cut back to `[128, 64, 128]` this is the projected-edge tile. One step of
  the aggregation then adds to the carried row tile, for every neighbour `j` of the tile, the message — the row term, the
  neighbour term, the edge term and the bias, in that order — times the mask, summed over `j`.

  Every matrix product here contracts the left operand's columns with the rows of a transposed weight, into a zero
  accumulator, so at an entry it is a plain sum of products; every other step is a re-indexing (a reshape keeps the
  row-major position, a broadcast repeats along the new or unit axes) or pointwise.
-/
import proofs.«115202_j74612171866795_1_alg».proof.Proof.Outs
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Idealize.ShloMosaic Idealize.ShloMosaic.ValueIdx Cert.KernelIdeal Cert.KernelIdeal.Gen Cert.KernelIdeal.Hand

/-! ## A matrix product into a zero accumulator, read at an entry -/

/-- A product of an `[M, K]` by a `[K, N]` matrix (contracting the left operand's columns with the right operand's rows)
    accumulated into the zero matrix is, at entry `(a, b)`, the sum over `k` of left `(a, k)` times right `(k, b)`. The
    dimension record's index maps enter through their four coordinate facts. -/
theorem matmul2_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) (a : Fin M) (b : Fin N) :
    matmul D prec l r (constant (F := Ideal) ⟨2, ![M, N]⟩ .f32 0x00000000#32) (ix2 a b) = ∑ k : Fin K, l (ix2 a k) * r (ix2 k b) := by
  show FloatOps.matmul D prec l r (constant (F := Ideal) ⟨2, ![M, N]⟩ .f32 0x00000000#32) (ix2 a b) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 a b) ((contrEquiv1 D K hr hs).symm k) = ix2 a k := funext fun c => Fin.ext (by
    match c with
    | ⟨0, _⟩ => exact hl0 _ _
    | ⟨1, _⟩ => exact (hl1 _ _).trans hk)
  have er : D.rhsIdx (ix2 a b) ((contrEquiv1 D K hr hs).symm k) = ix2 k b := funext fun c => Fin.ext (by
    match c with
    | ⟨0, _⟩ => exact (hr0 _ _).trans hk
    | ⟨1, _⟩ => exact hr1 _ _)
  rw [el, er]

/-- The product record `dot_S512x128_S128x128_S512x128_1_0_0_1_n_n` at an entry. -/
theorem mm_nodes_apply {φ₁ φ₂ : FTy} (prec : Option ContractPrecision) (l : FVec Ideal S512x128 φ₁) (r : FVec Ideal S128x128 φ₂) (a : Fin 512) (b : Fin 128) :
    matmul dot_S512x128_S128x128_S512x128_1_0_0_1_n_n prec l r (constant (F := Ideal) S512x128 .f32 0x00000000#32) (ix2 a b) = ∑ k : Fin 128, l (ix2 a k) * r (ix2 k b) :=
  matmul2_zero_apply dot_S512x128_S128x128_S512x128_1_0_0_1_n_n rfl rfl
    (fun j q => by
      unfold DotDims.lhsIdx
      rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
      rfl)
    (fun j q => dot_S512x128_S128x128_S512x128_1_0_0_1_n_n.lhsIdx_val_of_single rfl j q)
    (fun j q => dot_S512x128_S128x128_S512x128_1_0_0_1_n_n.rhsIdx_val_of_single rfl j q)
    (fun j q => by
      unfold DotDims.rhsIdx
      rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
      rfl)
    prec l r a b

/-- The product record `dot_S8192x64_S64x128_S8192x128_1_0_0_1_n_n` at an entry. -/
theorem mm_edges_apply {φ₁ φ₂ : FTy} (prec : Option ContractPrecision) (l : FVec Ideal S8192x64 φ₁) (r : FVec Ideal S64x128 φ₂) (a : Fin 8192) (b : Fin 128) :
    matmul dot_S8192x64_S64x128_S8192x128_1_0_0_1_n_n prec l r (constant (F := Ideal) S8192x128 .f32 0x00000000#32) (ix2 a b) = ∑ k : Fin 64, l (ix2 a k) * r (ix2 k b) :=
  matmul2_zero_apply dot_S8192x64_S64x128_S8192x128_1_0_0_1_n_n rfl rfl
    (fun j q => by
      unfold DotDims.lhsIdx
      rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
      rfl)
    (fun j q => dot_S8192x64_S64x128_S8192x128_1_0_0_1_n_n.lhsIdx_val_of_single rfl j q)
    (fun j q => dot_S8192x64_S64x128_S8192x128_1_0_0_1_n_n.rhsIdx_val_of_single rfl j q)
    (fun j q => by
      unfold DotDims.rhsIdx
      rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
      rfl)
    prec l r a b

/-- The product record `dot_S8192x128_S128x128_S8192x128_1_0_0_1_n_n` at an entry. -/
theorem mm_edgeMsg_apply {φ₁ φ₂ : FTy} (prec : Option ContractPrecision) (l : FVec Ideal S8192x128 φ₁) (r : FVec Ideal S128x128 φ₂) (a : Fin 8192) (b : Fin 128) :
    matmul dot_S8192x128_S128x128_S8192x128_1_0_0_1_n_n prec l r (constant (F := Ideal) S8192x128 .f32 0x00000000#32) (ix2 a b) = ∑ k : Fin 128, l (ix2 a k) * r (ix2 k b) :=
  matmul2_zero_apply dot_S8192x128_S128x128_S8192x128_1_0_0_1_n_n rfl rfl
    (fun j q => by
      unfold DotDims.lhsIdx
      rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
      rfl)
    (fun j q => dot_S8192x128_S128x128_S8192x128_1_0_0_1_n_n.lhsIdx_val_of_single rfl j q)
    (fun j q => dot_S8192x128_S128x128_S8192x128_1_0_0_1_n_n.rhsIdx_val_of_single rfl j q)
    (fun j q => by
      unfold DotDims.rhsIdx
      rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
      rfl)
    prec l r a b

/-- The product record `dot_S128x128_S128x128_S128x128_1_0_0_1_n_n` at an entry. -/
theorem mm_rowMsg_apply {φ₁ φ₂ : FTy} (prec : Option ContractPrecision) (l : FVec Ideal S128x128 φ₁) (r : FVec Ideal S128x128 φ₂) (a : Fin 128) (b : Fin 128) :
    matmul dot_S128x128_S128x128_S128x128_1_0_0_1_n_n prec l r (constant (F := Ideal) S128x128 .f32 0x00000000#32) (ix2 a b) = ∑ k : Fin 128, l (ix2 a k) * r (ix2 k b) :=
  matmul2_zero_apply dot_S128x128_S128x128_S128x128_1_0_0_1_n_n rfl rfl
    (fun j q => by
      unfold DotDims.lhsIdx
      rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
      rfl)
    (fun j q => dot_S128x128_S128x128_S128x128_1_0_0_1_n_n.lhsIdx_val_of_single rfl j q)
    (fun j q => dot_S128x128_S128x128_S128x128_1_0_0_1_n_n.rhsIdx_val_of_single rfl j q)
    (fun j q => by
      unfold DotDims.rhsIdx
      rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
      rfl)
    prec l r a b

/-- The product record `dot_S64x128_S128x128_S64x128_1_0_0_1_n_n` at an entry. -/
theorem mm_nbrMsg_apply {φ₁ φ₂ : FTy} (prec : Option ContractPrecision) (l : FVec Ideal S64x128 φ₁) (r : FVec Ideal S128x128 φ₂) (a : Fin 64) (b : Fin 128) :
    matmul dot_S64x128_S128x128_S64x128_1_0_0_1_n_n prec l r (constant (F := Ideal) S64x128 .f32 0x00000000#32) (ix2 a b) = ∑ k : Fin 128, l (ix2 a k) * r (ix2 k b) :=
  matmul2_zero_apply dot_S64x128_S128x128_S64x128_1_0_0_1_n_n rfl rfl
    (fun j q => by
      unfold DotDims.lhsIdx
      rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
      rfl)
    (fun j q => dot_S64x128_S128x128_S64x128_1_0_0_1_n_n.lhsIdx_val_of_single rfl j q)
    (fun j q => dot_S64x128_S128x128_S64x128_1_0_0_1_n_n.rhsIdx_val_of_single rfl j q)
    (fun j q => by
      unfold DotDims.rhsIdx
      rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
      rfl)
    prec l r a b

/-! ## Region 0: the node projection -/

/-- The node block times the transposed weight: entry `(0, n, o)` is the sum over the feature `f` of `x0 (0, n, f) · x1 (o, f)`. -/
theorem out0_apply (x0 : Vec Ideal S1x512x128 .f32) (x1 : Vec Ideal S128x128 .f32) (n : Fin 512) (o : Fin 128) :
    out0 (F := Ideal) x0 x1 (ix3 (0 : Fin 1) n o) = ∑ f : Fin 128, x0 (ix3 (0 : Fin 1) n f) * x1 (ix2 o f) := by
  unfold out0 k0_pay1
  refine (shapeCast_ab_1ab_apply _ _ (0 : Fin 1) n o).trans ?_
  refine (mm_nodes_apply none _ _ n o).trans ?_
  refine Finset.sum_congr rfl fun f _ => ?_
  exact congrArg₂ (· * ·) (shapeCast_1ab_ab_apply x0 _ n f) (transpose_ix2_apply _ _ f o)

/-! ## Region 1: the tile flattened to rows -/

/-- Row `64·i + j` of the `[8192, ·]` matrices the tile `[128, 64, ·]` is flattened to. -/
def row (i : Fin 128) (j : Fin 64) : Fin 8192 := ⟨64 * i.val + j.val, by have := i.isLt; have := j.isLt; omega⟩

/-- The `[128, 64, 64]` tile flattened to `[8192, 64]` reads, at row `64·i + j`, the tile at `(i, j)` (row-major). -/
theorem flatten_apply {α : Type} (v : S128x64x64.Idx → α) (h : S128x64x64.ShapeCasts S8192x64) (i : Fin 128) (j : Fin 64) (e : Fin 64) :
    shapeCast S8192x64 v h (ix2 (row i j) e) = v (ix3 i j e) :=
  shapeCast_apply v h (ix2 (row i j) e) (ix3 i j e) (by
    rw [Shape.rowMajor_val_three, Shape.rowMajor_val_two]
    show (i.val * 64 + j.val) * 64 + e.val = (64 * i.val + j.val) * 64 + e.val
    omega)

/-- An `[8192, 128]` matrix cut back into the `[128, 64, 128]` tile reads, at `(i, j)`, row `64·i + j`. -/
theorem unflatten_apply {α : Type} (v : S8192x128.Idx → α) (h : S8192x128.ShapeCasts S128x64x128) (i : Fin 128) (j : Fin 64) (o : Fin 128) :
    shapeCast S128x64x128 v h (ix3 i j o) = v (ix2 (row i j) o) :=
  shapeCast_apply v h (ix3 i j o) (ix2 (row i j) o) (by
    rw [Shape.rowMajor_val_three, Shape.rowMajor_val_two]
    show (64 * i.val + j.val) * 128 + o.val = (i.val * 64 + j.val) * 128 + o.val
    omega)

/-! ## Region 1: the edge projection -/

/-- The projected edge at row `64·i + j`, column `o`: the edge `(i, j)`'s features against row `o` of the edge weight, plus the bias. -/
theorem edge_apply (x0 : Vec Ideal S1x128x64x64 .f32) (x4 : Vec Ideal S128x64 .f32) (x5 : Vec Ideal S128 .f32) (i : Fin 128) (j : Fin 64) (o : Fin 128) :
    k1_pay3 (F := Ideal) x0 x4 x5 (ix2 (row i j) o) = (∑ e : Fin 64, x0 (ix4 (0 : Fin 1) i j e) * x4 (ix2 o e)) + x5 (ix1 o) := by
  unfold k1_pay3
  refine (addf_apply _ _ _).trans ?_
  refine congrArg₂ (· + ·) ?_ ?_
  · refine (mm_edges_apply none _ _ (row i j) o).trans ?_
    refine Finset.sum_congr rfl fun e _ => ?_
    refine congrArg₂ (· * ·) ?_ (transpose_ix2_apply _ _ e o)
    refine (truncf_apply (φ := .f32) (ψ := .bf16) _ _ _).trans ?_
    exact (flatten_apply _ _ i j e).trans (shapeCast_1abc_abc_apply x0 _ i j e)
  · exact (broadcastTo_1b_ab_apply _ _ (row i j) o).trans (shapeCast_a_1a_apply x5 _ (0 : Fin 1) o)

/-- The projected-edge tile: entry `(0, i, j, o)` is the projected edge `(i, j)` at `o`. -/
theorem out10_apply (x0 : Vec Ideal S1x128x64x64 .f32) (x4 : Vec Ideal S128x64 .f32) (x5 : Vec Ideal S128 .f32) (i : Fin 128) (j : Fin 64) (o : Fin 128) :
    out10 (F := Ideal) x0 x4 x5 (ix4 (0 : Fin 1) i j o) = (∑ e : Fin 64, x0 (ix4 (0 : Fin 1) i j e) * x4 (ix2 o e)) + x5 (ix1 o) := by
  unfold out10 k1_pay4
  refine (shapeCast_abc_1abc_apply _ _ (0 : Fin 1) i j o).trans ?_
  exact (unflatten_apply _ _ i j o).trans (edge_apply x0 x4 x5 i j o)

/-- The row tile is reset to the projected nodes' row tile. -/
theorem init11_apply (x2 : Vec Ideal S1x128x128 .f32) (i p : Fin 128) :
    init11 (F := Ideal) x2 (ix3 (0 : Fin 1) i p) = x2 (ix3 (0 : Fin 1) i p) := by
  unfold init11 k1_pay1 k1_pay6
  exact (shapeCast_ab_1ab_apply _ _ (0 : Fin 1) i p).trans (shapeCast_1ab_ab_apply x2 _ i p)

/-! ## Region 1: the layout steps of the aggregation, each at an entry -/

/-- The sum over the neighbour axis of a `[128, 64, 128]` tile, at `(i, p)`. -/
theorem laneSum_apply (src : FVec Ideal S128x64x128 .f32) (h : S128x64x128.Reduces [1] S128x128) (hφ : FKind.Formats .f32)
    (hacc : (0x00000000#32 : BitVec 32) = 0x00000000#32) (i p : Fin 128) :
    multiReduction (F := Ideal) .add [1] S128x128 src 0x00000000#32 h hφ hacc (ix2 i p) = ∑ j : Fin 64, src (ix3 i j p) := by
  refine (Ideal.multiReduction_add_single src 0x00000000#32 h hφ hacc (ix2 i p)).trans ?_
  refine Finset.sum_congr rfl fun j _ => congrArg src ?_
  funext a
  refine Fin.ext ?_
  match a with
  | ⟨0, _⟩ => rfl
  | ⟨1, _⟩ => rfl
  | ⟨2, _⟩ => rfl

/-- A `[128, 128]` matrix given a middle unit axis reads, at `(i, 0, p)`, the matrix at `(i, p)`. -/
theorem shapeCast_ab_a1b_apply {α : Type} (v : S128x128.Idx → α) (h : S128x128.ShapeCasts S128x1x128) (i p : Fin 128) :
    shapeCast S128x1x128 v h (ix3 i (0 : Fin 1) p) = v (ix2 i p) :=
  shapeCast_apply v h (ix3 i (0 : Fin 1) p) (ix2 i p) (by
    rw [Shape.rowMajor_val_three, Shape.rowMajor_val_two]
    show i.val * 128 + p.val = (i.val * 1 + 0) * 128 + p.val
    omega)

/-- A `[128]` vector given two leading unit axes reads, at `(0, 0, p)`, the vector at `p`. -/
theorem shapeCast_a_11a_apply {α : Type} (v : S128.Idx → α) (h : S128.ShapeCasts S1x1x128) (p : Fin 128) :
    shapeCast S1x1x128 v h (ix3 (0 : Fin 1) (0 : Fin 1) p) = v (ix1 p) :=
  shapeCast_apply v h (ix3 (0 : Fin 1) (0 : Fin 1) p) (ix1 p) (by
    rw [Shape.rowMajor_val_three, Shape.rowMajor_val_one]
    show p.val = (0 * 1 + 0) * 128 + p.val
    omega)

/-- A `[128, 1, 128]` array spread along the neighbour axis reads, at `(i, j, p)`, its entry `(i, 0, p)`. -/
theorem spreadRow_apply {α : Type} (v : S128x1x128.Idx → α) (h : S128x1x128.Broadcasts S128x64x128) (i : Fin 128) (j : Fin 64) (p : Fin 128) :
    broadcastTo S128x64x128 v h (ix3 i j p) = v (ix3 i (0 : Fin 1) p) :=
  broadcastTo_apply v h (ix3 i j p) (ix3 i (0 : Fin 1) p) fun a => by
    match a with
    | ⟨0, _⟩ => show i.val = if (128 : Nat) = 1 then 0 else i.val; rw [if_neg (by decide)]
    | ⟨1, _⟩ => show 0 = if (1 : Nat) = 1 then 0 else j.val; rw [if_pos rfl]
    | ⟨2, _⟩ => show p.val = if (128 : Nat) = 1 then 0 else p.val; rw [if_neg (by decide)]

/-- A `[1, 64, 128]` array spread along the row axis reads, at `(i, j, p)`, its entry `(0, j, p)`. -/
theorem spreadNbr_apply {α : Type} (v : S1x64x128.Idx → α) (h : S1x64x128.Broadcasts S128x64x128) (i : Fin 128) (j : Fin 64) (p : Fin 128) :
    broadcastTo S128x64x128 v h (ix3 i j p) = v (ix3 (0 : Fin 1) j p) :=
  broadcastTo_apply v h (ix3 i j p) (ix3 (0 : Fin 1) j p) fun a => by
    match a with
    | ⟨0, _⟩ => show 0 = if (1 : Nat) = 1 then 0 else i.val; rw [if_pos rfl]
    | ⟨1, _⟩ => show j.val = if (64 : Nat) = 1 then 0 else j.val; rw [if_neg (by decide)]
    | ⟨2, _⟩ => show p.val = if (128 : Nat) = 1 then 0 else p.val; rw [if_neg (by decide)]

/-- A `[1, 1, 128]` array spread along both tile axes reads, at `(i, j, p)`, its entry `(0, 0, p)`. -/
theorem spreadBias_apply {α : Type} (v : S1x1x128.Idx → α) (h : S1x1x128.Broadcasts S128x64x128) (i : Fin 128) (j : Fin 64) (p : Fin 128) :
    broadcastTo S128x64x128 v h (ix3 i j p) = v (ix3 (0 : Fin 1) (0 : Fin 1) p) :=
  broadcastTo_apply v h (ix3 i j p) (ix3 (0 : Fin 1) (0 : Fin 1) p) fun a => by
    match a with
    | ⟨0, _⟩ => show 0 = if (1 : Nat) = 1 then 0 else i.val; rw [if_pos rfl]
    | ⟨1, _⟩ => show 0 = if (1 : Nat) = 1 then 0 else j.val; rw [if_pos rfl]
    | ⟨2, _⟩ => show p.val = if (128 : Nat) = 1 then 0 else p.val; rw [if_neg (by decide)]

/-- A `[128, 64, 1]` array spread along the lanes reads, at `(i, j, p)`, its entry `(i, j, 0)`. -/
theorem spreadMask_apply {α : Type} (v : S128x64x1.Idx → α) (h : S128x64x1.Broadcasts S128x64x128) (i : Fin 128) (j : Fin 64) (p : Fin 128) :
    broadcastTo S128x64x128 v h (ix3 i j p) = v (ix3 i j (0 : Fin 1)) :=
  broadcastTo_apply v h (ix3 i j p) (ix3 i j (0 : Fin 1)) fun a => by
    match a with
    | ⟨0, _⟩ => show i.val = if (128 : Nat) = 1 then 0 else i.val; rw [if_neg (by decide)]
    | ⟨1, _⟩ => show j.val = if (64 : Nat) = 1 then 0 else j.val; rw [if_neg (by decide)]
    | ⟨2, _⟩ => show 0 = if (1 : Nat) = 1 then 0 else p.val; rw [if_pos rfl]

/-! ## Region 1: one step of the aggregation -/

/-- One aggregation step over the values the body holds: at `(0, i, p)` the carried row tile plus, summed over the
    neighbours `j` of this tile, the message — the row term `Σ_o v24 (i, o) · v28 (p, o)`, the neighbour term
    `Σ_o v26 (j, o) · v30 (p, o)`, the edge term `v22 (i, j, p)` and the bias `v31 p`, added in that order — times the
    mask `v49 (0, i, j, 0)`. -/
theorem step_apply (v22 : FVec Ideal S128x64x128 .f32) (v24 : FVec Ideal S128x128 .f32) (v26 : FVec Ideal S64x128 .f32)
    (v28 v30 : FVec Ideal S128x128 .f32) (v31 : Vec Ideal S128 .f32) (v49 : Vec Ideal S1x128x64x1 .f32)
    (v57 : Vec Ideal S1x128x128 .f32) (i p : Fin 128) :
    k1_pay2 (F := Ideal) v22 v24 v26 v28 v30 v31 v49 v57 (ix3 (0 : Fin 1) i p)
      = v57 (ix3 (0 : Fin 1) i p) + ∑ j : Fin 64,
          ((((∑ o : Fin 128, v24 (ix2 i o) * v28 (ix2 p o)) + (∑ o : Fin 128, v26 (ix2 j o) * v30 (ix2 p o)))
              + v22 (ix3 i j p)) + v31 (ix1 p)) * v49 (ix4 (0 : Fin 1) i j (0 : Fin 1)) := by
  unfold k1_pay2
  refine (shapeCast_ab_1ab_apply _ _ (0 : Fin 1) i p).trans ?_
  refine (addf_apply _ _ _).trans ?_
  refine congrArg₂ (· + ·) (shapeCast_1ab_ab_apply v57 _ i p) ?_
  refine (laneSum_apply _ _ _ _ i p).trans ?_
  refine Finset.sum_congr rfl fun j _ => ?_
  refine (mulf_apply _ _ _).trans ?_
  refine congrArg₂ (· * ·) ?_ ?_
  · refine (addf_apply _ _ _).trans ?_
    refine congrArg₂ (· + ·) ?_ ?_
    · refine (addf_apply _ _ _).trans ?_
      refine congrArg₂ (· + ·) ?_ rfl
      refine (addf_apply _ _ _).trans ?_
      refine congrArg₂ (· + ·) ?_ ?_
      · refine (spreadRow_apply _ _ i j p).trans ?_
        refine (shapeCast_ab_a1b_apply _ _ i p).trans ?_
        refine (mm_rowMsg_apply none _ _ i p).trans ?_
        exact Finset.sum_congr rfl fun o _ => congrArg₂ (· * ·) (truncf_apply (φ := .f32) (ψ := .bf16) v24 _ _) (transpose_ix2_apply _ _ o p)
      · refine (spreadNbr_apply _ _ i j p).trans ?_
        refine (shapeCast_ab_1ab_apply _ _ (0 : Fin 1) j p).trans ?_
        refine (mm_nbrMsg_apply none _ _ j p).trans ?_
        exact Finset.sum_congr rfl fun o _ => congrArg₂ (· * ·) (truncf_apply (φ := .f32) (ψ := .bf16) v26 _ _) (transpose_ix2_apply _ _ o p)
    · exact (spreadBias_apply _ _ i j p).trans (shapeCast_a_11a_apply v31 _ p)
  · exact (spreadMask_apply _ _ i j p).trans (shapeCast_1abc_abc_apply v49 _ i j (0 : Fin 1))

/-! ## Region 1: the values the step is applied to -/

/-- The projected nodes' row tile without its unit axis. -/
theorem rowTile_apply (x2 : Vec Ideal S1x128x128 .f32) (i o : Fin 128) :
    k1_pay6 (F := Ideal) x2 (ix2 i o) = x2 (ix3 (0 : Fin 1) i o) := by
  unfold k1_pay6
  exact shapeCast_1ab_ab_apply x2 _ i o

/-- The projected nodes' neighbour tile without its unit axis. -/
theorem nbrTile_apply (x3 : Vec Ideal S1x64x128 .f32) (j : Fin 64) (o : Fin 128) :
    k1_pay7 (F := Ideal) x3 (ix2 j o) = x3 (ix3 (0 : Fin 1) j o) := by
  unfold k1_pay7
  exact shapeCast_1ab_ab_apply x3 _ j o

/-- The first block of the message weight is used as it is. -/
theorem weightRow_apply (x6 : Vec Ideal S128x128 .f32) (p o : Fin 128) : k1_pay8 (F := Ideal) x6 (ix2 p o) = x6 (ix2 p o) := by
  unfold k1_pay8
  exact congrFun (shapeCast_self x6 _) (ix2 p o)

/-- The second block of the message weight is used as it is. -/
theorem weightNbr_apply (x7 : Vec Ideal S128x128 .f32) (p o : Fin 128) : k1_pay9 (F := Ideal) x7 (ix2 p o) = x7 (ix2 p o) := by
  unfold k1_pay9
  exact congrFun (shapeCast_self x7 _) (ix2 p o)

/-- The edge term: the projected edge `(i, j)` against row `p` of the third block of the message weight. -/
theorem edgeMsg_apply (x0 : Vec Ideal S1x128x64x64 .f32) (x4 : Vec Ideal S128x64 .f32) (x5 : Vec Ideal S128 .f32)
    (x8 : Vec Ideal S128x128 .f32) (i : Fin 128) (j : Fin 64) (p : Fin 128) :
    k1_pay5 (F := Ideal) x0 x4 x5 x8 (ix3 i j p)
      = ∑ o : Fin 128, ((∑ e : Fin 64, x0 (ix4 (0 : Fin 1) i j e) * x4 (ix2 o e)) + x5 (ix1 o)) * x8 (ix2 p o) := by
  unfold k1_pay5
  refine (unflatten_apply _ _ i j p).trans ?_
  refine (mm_edgeMsg_apply none _ _ (row i j) p).trans ?_
  refine Finset.sum_congr rfl fun o _ => ?_
  refine congrArg₂ (· * ·) ((truncf_apply (φ := .f32) (ψ := .bf16) _ _ _).trans (edge_apply x0 x4 x5 i j o)) ?_
  refine (transpose_ix2_apply _ _ o p).trans ?_
  refine (truncf_apply (φ := .f32) (ψ := .bf16) _ _ _).trans ?_
  exact congrFun (shapeCast_self x8 _) (ix2 p o)

/-- One step of the aggregation over the blocks the body reads: the carried row tile plus the masked messages of this
    neighbour tile. -/
theorem acc11_apply (x0 : Vec Ideal S1x128x64x64 .f32) (x1 : Vec Ideal S1x128x64x1 .f32) (x2 : Vec Ideal S1x128x128 .f32) (x3 : Vec Ideal S1x64x128 .f32)
    (x4 : Vec Ideal S128x64 .f32) (x5 : Vec Ideal S128 .f32) (x6 x7 x8 : Vec Ideal S128x128 .f32) (x9 : Vec Ideal S128 .f32) (d : Vec Ideal S1x128x128 .f32) (i p : Fin 128) :
    acc11 (F := Ideal) x0 x1 x2 x3 x4 x5 x6 x7 x8 x9 d (ix3 (0 : Fin 1) i p)
      = d (ix3 (0 : Fin 1) i p) + ∑ j : Fin 64,
          ((((∑ o : Fin 128, x2 (ix3 (0 : Fin 1) i o) * x6 (ix2 p o)) + (∑ o : Fin 128, x3 (ix3 (0 : Fin 1) j o) * x7 (ix2 p o)))
              + (∑ o : Fin 128, ((∑ e : Fin 64, x0 (ix4 (0 : Fin 1) i j e) * x4 (ix2 o e)) + x5 (ix1 o)) * x8 (ix2 p o)))
            + x9 (ix1 p)) * x1 (ix4 (0 : Fin 1) i j (0 : Fin 1)) := by
  unfold acc11
  refine (step_apply _ _ _ _ _ x9 x1 d i p).trans ?_
  refine congrArg (d (ix3 (0 : Fin 1) i p) + ·) (Finset.sum_congr rfl fun j _ => ?_)
  refine congrArg (· * x1 (ix4 (0 : Fin 1) i j (0 : Fin 1))) ?_
  refine congrArg (· + x9 (ix1 p)) ?_
  refine congrArg₂ (· + ·) (congrArg₂ (· + ·) ?_ ?_) (edgeMsg_apply x0 x4 x5 x8 i j p)
  · exact Finset.sum_congr rfl fun o _ => congrArg₂ (· * ·) (rowTile_apply x2 i o) (weightRow_apply x6 p o)
  · exact Finset.sum_congr rfl fun o _ => congrArg₂ (· * ·) (nbrTile_apply x3 j o) (weightNbr_apply x7 p o)

end Cert.KernelIdeal.HandValue

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.Accum.lean ====
/-
  The aggregation in closed form: what region 1's carried row tile holds after the eighth neighbour tile.

  The grid's 128 points fall into 16 groups of eight consecutive points; the points of a group share the batch entry
  `b` and the row tile, and run through the eight neighbour tiles in order. At the group's first point the tile is reset
  to the projected nodes' rows and the first neighbour tile's masked messages (summed over its 64 rows) are added; at
  every later point the messages of that point's neighbour tile are added to what the point before left. So at the
  point of neighbour tile `j'` the tile holds, at row `ii` and feature `p`, the projected node plus the messages of
  neighbour tiles `0, …, j'`; after the eighth that is the projected node plus the sum over all eight tiles of the sums
  over their 64 rows, which is the sum over the 512 neighbours regrouped into eight blocks of 64. Only the commutativity and
  associativity of addition on the extended reals are used.

  That the ten input blocks at a point are the arrays at the point's batch entry, row tile and neighbour tile is taken
  as ten hypotheses.
-/
import proofs.«115202_j74612171866795_1_alg».proof.Proof.Data
import proofs.«115202_j74612171866795_1_alg».proof.Proof.Coords
import proofs.«115202_j74612171866795_1_alg».proof.Proof.KernelValue
import proofs.«115202_j74612171866795_1_alg».proof.Proof.LibBlockSum
import Idealize.ShloMosaic.Lib.ValueIdx

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand

variable (V : (c : Dev nD) → (b : Ref sig .tc) → Buf (Elt Ideal) ((c : Thread nD τ).loc b)) (c : Dev nD)

/-! ## The arrays region 1 reads -/

/-- The edge features `[4, 512, 512, 64]`. -/
abbrev adjA : S4x512x512x64.Idx → EReal := V c main_arg1
/-- The mask `[4, 512, 512, 1]`. -/
abbrev maskA : S4x512x512x1.Idx → EReal := V c main_arg2
/-- The projected nodes `[4, 512, 128]`. -/
abbrev xpA : S4x512x128.Idx → EReal := V c main_v3
/-- The edge weight `[128, 64]`. -/
abbrev weA : S128x64.Idx → EReal := V c main_arg4
/-- The edge bias `[128]`. -/
abbrev beA : S128.Idx → EReal := V c main_arg5
/-- The three square blocks `[128, 128]` of the message weight. -/
abbrev w1A : S128x128.Idx → EReal := V c main_v0
abbrev w2A : S128x128.Idx → EReal := V c main_v1
abbrev w3A : S128x128.Idx → EReal := V c main_v2
/-- The message bias `[128]`. -/
abbrev bmA : S128.Idx → EReal := V c main_arg7

/-! ## The masked message and its sum over one neighbour tile -/

/-- The masked message from neighbour `j` to node `i` of batch entry `b` at feature `p`, over the arrays region 1 reads:
    the receiving node's term, the neighbour's term, the edge's term and the bias, added in that order, times the mask. -/
def masked1 (b : Fin 4) (i j : Fin 512) (p : Fin 128) : EReal :=
  ((((∑ o : Fin 128, xpA V c (ix3 b i o) * w1A V c (ix2 p o)) + (∑ o : Fin 128, xpA V c (ix3 b j o) * w2A V c (ix2 p o)))
      + (∑ o : Fin 128, ((∑ e : Fin 64, adjA V c (ix4 b i j e) * weA V c (ix2 o e)) + beA V c (ix1 o)) * w3A V c (ix2 p o)))
    + bmA V c (ix1 p)) * maskA V c (ix4 b i j (0 : Fin 1))

/-- The masked messages to node `i` summed over the 64 rows of neighbour tile `j'`. -/
def tileSum (b : Fin 4) (i : Fin 512) (j' : Fin 8) (p : Fin 128) : EReal :=
  ∑ jj : Fin 64, masked1 V c b i (row64 j' jj) p

/-- One aggregation step over blocks that are the arrays at batch entry `b`, row tile `ti` and neighbour tile `tj`: the
    carried value plus the masked messages of that neighbour tile. -/
theorem acc11_reads (x0 : Vec Ideal S1x128x64x64 .f32) (x1 : Vec Ideal S1x128x64x1 .f32) (x2 : Vec Ideal S1x128x128 .f32) (x3 : Vec Ideal S1x64x128 .f32)
    (x4 : Vec Ideal S128x64 .f32) (x5 : Vec Ideal S128 .f32) (x6 x7 x8 : Vec Ideal S128x128 .f32) (x9 : Vec Ideal S128 .f32) (d : Vec Ideal S1x128x128 .f32)
    (b : Fin 4) (ti : Fin 4) (tj : Fin 8)
    (h0 : ∀ (ii : Fin 128) (jj : Fin 64) (e : Fin 64), x0 (ix4 (0 : Fin 1) ii jj e) = V c main_arg1 (ix4 b (row128 ti ii) (row64 tj jj) e))
    (h1 : ∀ (ii : Fin 128) (jj : Fin 64), x1 (ix4 (0 : Fin 1) ii jj (0 : Fin 1)) = V c main_arg2 (ix4 b (row128 ti ii) (row64 tj jj) (0 : Fin 1)))
    (h2 : ∀ (ii o : Fin 128), x2 (ix3 (0 : Fin 1) ii o) = V c main_v3 (ix3 b (row128 ti ii) o))
    (h3 : ∀ (jj : Fin 64) (o : Fin 128), x3 (ix3 (0 : Fin 1) jj o) = V c main_v3 (ix3 b (row64 tj jj) o))
    (h4 : ∀ (o : Fin 128) (e : Fin 64), x4 (ix2 o e) = V c main_arg4 (ix2 o e))
    (h5 : ∀ (o : Fin 128), x5 (ix1 o) = V c main_arg5 (ix1 o))
    (h6 : ∀ (p o : Fin 128), x6 (ix2 p o) = V c main_v0 (ix2 p o))
    (h7 : ∀ (p o : Fin 128), x7 (ix2 p o) = V c main_v1 (ix2 p o))
    (h8 : ∀ (p o : Fin 128), x8 (ix2 p o) = V c main_v2 (ix2 p o))
    (h9 : ∀ (p : Fin 128), x9 (ix1 p) = V c main_arg7 (ix1 p))
    (ii p : Fin 128) :
    acc11 (F := Ideal) x0 x1 x2 x3 x4 x5 x6 x7 x8 x9 d (ix3 (0 : Fin 1) ii p)
      = d (ix3 (0 : Fin 1) ii p) + tileSum V c b (row128 ti ii) tj p := by
  refine (acc11_apply x0 x1 x2 x3 x4 x5 x6 x7 x8 x9 d ii p).trans ?_
  refine congrArg (d (ix3 (0 : Fin 1) ii p) + ·) (Finset.sum_congr rfl fun jj _ => ?_)
  unfold masked1
  simp only [h0, h1, h2, h3, h4, h5, h6, h7, h8, h9]

/-- The body's row tile over such blocks: reset to the projected node where the neighbour-tile coordinate is 0, then
    one step. -/
theorem out11_reads (g : grid1.Coords)
    (x0 : Vec Ideal S1x128x64x64 .f32) (x1 : Vec Ideal S1x128x64x1 .f32) (x2 : Vec Ideal S1x128x128 .f32) (x3 : Vec Ideal S1x64x128 .f32)
    (x4 : Vec Ideal S128x64 .f32) (x5 : Vec Ideal S128 .f32) (x6 x7 x8 : Vec Ideal S128x128 .f32) (x9 : Vec Ideal S128 .f32) (d : Vec Ideal S1x128x128 .f32)
    (b : Fin 4) (ti : Fin 4) (tj : Fin 8)
    (h0 : ∀ (ii : Fin 128) (jj : Fin 64) (e : Fin 64), x0 (ix4 (0 : Fin 1) ii jj e) = V c main_arg1 (ix4 b (row128 ti ii) (row64 tj jj) e))
    (h1 : ∀ (ii : Fin 128) (jj : Fin 64), x1 (ix4 (0 : Fin 1) ii jj (0 : Fin 1)) = V c main_arg2 (ix4 b (row128 ti ii) (row64 tj jj) (0 : Fin 1)))
    (h2 : ∀ (ii o : Fin 128), x2 (ix3 (0 : Fin 1) ii o) = V c main_v3 (ix3 b (row128 ti ii) o))
    (h3 : ∀ (jj : Fin 64) (o : Fin 128), x3 (ix3 (0 : Fin 1) jj o) = V c main_v3 (ix3 b (row64 tj jj) o))
    (h4 : ∀ (o : Fin 128) (e : Fin 64), x4 (ix2 o e) = V c main_arg4 (ix2 o e))
    (h5 : ∀ (o : Fin 128), x5 (ix1 o) = V c main_arg5 (ix1 o))
    (h6 : ∀ (p o : Fin 128), x6 (ix2 p o) = V c main_v0 (ix2 p o))
    (h7 : ∀ (p o : Fin 128), x7 (ix2 p o) = V c main_v1 (ix2 p o))
    (h8 : ∀ (p o : Fin 128), x8 (ix2 p o) = V c main_v2 (ix2 p o))
    (h9 : ∀ (p : Fin 128), x9 (ix1 p) = V c main_arg7 (ix1 p))
    (ii p : Fin 128) :
    out11 (F := Ideal) g x0 x1 x2 x3 x4 x5 x6 x7 x8 x9 d (ix3 (0 : Fin 1) ii p)
      = (if (g 2).val = 0 then xpA V c (ix3 b (row128 ti ii) p) else d (ix3 (0 : Fin 1) ii p))
          + tileSum V c b (row128 ti ii) tj p := by
  unfold out11
  refine (acc11_reads V c x0 x1 x2 x3 x4 x5 x6 x7 x8 x9 _ b ti tj h0 h1 h2 h3 h4 h5 h6 h7 h8 h9 ii p).trans ?_
  refine congrArg (· + tileSum V c b (row128 ti ii) tj p) ?_
  by_cases hg : (g 2).val = 0
  · rw [if_pos hg, if_pos hg]
    exact (init11_apply x2 ii p).trans (h2 ii p)
  · rw [if_neg hg, if_neg hg]

/-- The neighbour-tile sums as a sequence on the natural numbers (zero from 8 on). -/
def tileSumN (b : Fin 4) (i : Fin 512) (p : Fin 128) (j' : ℕ) : EReal :=
  if h : j' < 8 then tileSum V c b i ⟨j', h⟩ p else 0

/-! ## The carried row tile along a group of eight points -/

section Reads

variable
    (r0 : ∀ (t : Fin cfg1.N) (ii : Fin 128) (jj : Fin 64) (e : Fin 64), iblk1 V c 0 t (ix4 (0 : Fin 1) ii jj e) = V c main_arg1 (ix4 (pb t) (row128 (pi t) ii) (row64 (pj t) jj) e))
    (r1 : ∀ (t : Fin cfg1.N) (ii : Fin 128) (jj : Fin 64), iblk1 V c 1 t (ix4 (0 : Fin 1) ii jj (0 : Fin 1)) = V c main_arg2 (ix4 (pb t) (row128 (pi t) ii) (row64 (pj t) jj) (0 : Fin 1)))
    (r2 : ∀ (t : Fin cfg1.N) (ii o : Fin 128), iblk1 V c 2 t (ix3 (0 : Fin 1) ii o) = V c main_v3 (ix3 (pb t) (row128 (pi t) ii) o))
    (r3 : ∀ (t : Fin cfg1.N) (jj : Fin 64) (o : Fin 128), iblk1 V c 3 t (ix3 (0 : Fin 1) jj o) = V c main_v3 (ix3 (pb t) (row64 (pj t) jj) o))
    (r4 : ∀ (t : Fin cfg1.N) (o : Fin 128) (e : Fin 64), iblk1 V c 4 t (ix2 o e) = V c main_arg4 (ix2 o e))
    (r5 : ∀ (t : Fin cfg1.N) (o : Fin 128), iblk1 V c 5 t (ix1 o) = V c main_arg5 (ix1 o))
    (r6 : ∀ (t : Fin cfg1.N) (p o : Fin 128), iblk1 V c 6 t (ix2 p o) = V c main_v0 (ix2 p o))
    (r7 : ∀ (t : Fin cfg1.N) (p o : Fin 128), iblk1 V c 7 t (ix2 p o) = V c main_v1 (ix2 p o))
    (r8 : ∀ (t : Fin cfg1.N) (p o : Fin 128), iblk1 V c 8 t (ix2 p o) = V c main_v2 (ix2 p o))
    (r9 : ∀ (t : Fin cfg1.N) (p : Fin 128), iblk1 V c 9 t (ix1 p) = V c main_arg7 (ix1 p))

include r0 r1 r2 r3 r4 r5 r6 r7 r8 r9

/-- The body's row tile at a point `t` over what it finds: the projected node (first neighbour tile) or what it finds,
    plus the masked messages of the point's neighbour tile. -/
theorem step_at (t : Fin cfg1.N) (d : Vec Ideal S1x128x128 .f32) (ii p : Fin 128) :
    out11 (grid1.coords t) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) d (ix3 (0 : Fin 1) ii p)
      = (if t.val % 8 = 0 then xpA V c (ix3 (pb t) (row128 (pi t) ii) p) else d (ix3 (0 : Fin 1) ii p))
          + tileSum V c (pb t) (row128 (pi t) ii) (pj t) p := by
  have e := out11_reads V c (grid1.coords t) (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) d (pb t) (pi t) (pj t)
    (r0 t) (r1 t) (r2 t) (r3 t) (r4 t) (r5 t) (r6 t) (r7 t) (r8 t) (r9 t) ii p
  rw [coord2 t] at e
  exact e

/-- At the first point of a group the carried tile is the projected node plus the first neighbour tile's messages. -/
theorem outs11_first (t : Fin cfg1.N) (h : t.val % 8 = 0) (ii p : Fin 128) :
    outs11 V c t.val t.isLt (ix3 (0 : Fin 1) ii p)
      = xpA V c (ix3 (pb t) (row128 (pi t) ii) p) + tileSum V c (pb t) (row128 (pi t) ii) (pj t) p := by
  refine (congrFun (outs11_eq V c t (init11 (iblk1 V c 2 t)) (fun h' => absurd h h')) (ix3 (0 : Fin 1) ii p)).trans ?_
  refine (step_at V c r0 r1 r2 r3 r4 r5 r6 r7 r8 r9 t _ ii p).trans ?_
  rw [if_pos h]

/-- At any other point it is what the point before left plus this neighbour tile's messages. -/
theorem outs11_next (t : Fin cfg1.N) (h : t.val % 8 ≠ 0) (ii p : Fin 128) :
    outs11 V c t.val t.isLt (ix3 (0 : Fin 1) ii p)
      = outs11 V c (t.val - 1) (Nat.lt_of_le_of_lt (Nat.sub_le _ _) t.isLt) (ix3 (0 : Fin 1) ii p)
          + tileSum V c (pb t) (row128 (pi t) ii) (pj t) p := by
  refine (congrFun (outs11_eq V c t (outs11 V c (t.val - 1) (Nat.lt_of_le_of_lt (Nat.sub_le _ _) t.isLt)) (fun _ => rfl))
    (ix3 (0 : Fin 1) ii p)).trans ?_
  refine (step_at V c r0 r1 r2 r3 r4 r5 r6 r7 r8 r9 t _ ii p).trans ?_
  rw [if_neg h]

/-- At every point the carried tile is the projected node plus the messages of the neighbour tiles up to the point's. -/
theorem outs11_closed : ∀ (n : ℕ) (hn : n < cfg1.N) (ii p : Fin 128),
    outs11 V c n hn (ix3 (0 : Fin 1) ii p)
      = xpA V c (ix3 (pb ⟨n, hn⟩) (row128 (pi ⟨n, hn⟩) ii) p)
          + ∑ j' ∈ Finset.range (n % 8 + 1), tileSumN V c (pb ⟨n, hn⟩) (row128 (pi ⟨n, hn⟩) ii) p j' := by
  intro n
  induction n with
  | zero =>
    intro hn ii p
    refine (outs11_first V c r0 r1 r2 r3 r4 r5 r6 r7 r8 r9 ⟨0, hn⟩ rfl ii p).trans ?_
    refine congrArg (xpA V c (ix3 (pb ⟨0, hn⟩) (row128 (pi ⟨0, hn⟩) ii) p) + ·) ?_
    rw [Finset.sum_range_one]
    unfold tileSumN
    rw [dif_pos (by decide)]
    rfl
  | succ m ih =>
    intro hn ii p
    by_cases h : (m + 1) % 8 = 0
    · refine (outs11_first V c r0 r1 r2 r3 r4 r5 r6 r7 r8 r9 ⟨m + 1, hn⟩ h ii p).trans ?_
      refine congrArg (xpA V c (ix3 (pb ⟨m + 1, hn⟩) (row128 (pi ⟨m + 1, hn⟩) ii) p) + ·) ?_
      rw [h, Finset.sum_range_one]
      unfold tileSumN
      rw [dif_pos (by decide)]
      exact congrArg (fun j' => tileSum V c (pb ⟨m + 1, hn⟩) (row128 (pi ⟨m + 1, hn⟩) ii) j' p) (Fin.ext h)
    · have hm : m < cfg1.N := Nat.lt_of_succ_lt hn
      have hb : pb ⟨m, hm⟩ = pb ⟨m + 1, hn⟩ := Fin.ext (by show m / 32 = (m + 1) / 32; omega)
      have hi : pi ⟨m, hm⟩ = pi ⟨m + 1, hn⟩ := Fin.ext (by show m / 8 % 4 = (m + 1) / 8 % 4; omega)
      have hr : (m + 1) % 8 + 1 = (m % 8 + 1) + 1 := by omega
      have h8 : m % 8 + 1 < 8 := by omega
      refine (outs11_next V c r0 r1 r2 r3 r4 r5 r6 r7 r8 r9 ⟨m + 1, hn⟩ h ii p).trans ?_
      show outs11 V c m hm (ix3 (0 : Fin 1) ii p) + _ = _
      rw [ih hm ii p, hb, hi, hr, Finset.sum_range_succ _ (m % 8 + 1), add_assoc]
      refine congrArg (xpA V c (ix3 (pb ⟨m + 1, hn⟩) (row128 (pi ⟨m + 1, hn⟩) ii) p) + ·) ?_
      refine congrArg (∑ j' ∈ Finset.range (m % 8 + 1), tileSumN V c (pb ⟨m + 1, hn⟩) (row128 (pi ⟨m + 1, hn⟩) ii) p j' + ·) ?_
      unfold tileSumN
      rw [dif_pos h8]
      exact congrArg (fun j' => tileSum V c (pb ⟨m + 1, hn⟩) (row128 (pi ⟨m + 1, hn⟩) ii) j' p) (Fin.ext (by show (m + 1) % 8 = m % 8 + 1; omega))

/-- After the eighth neighbour tile the carried tile holds the masked messages from all 512 neighbours plus the
    projected node. -/
theorem outs11_last (t : Fin cfg1.N) (ht : t.val % 8 = 7) (ii p : Fin 128) :
    outs11 V c t.val t.isLt (ix3 (0 : Fin 1) ii p)
      = (∑ j : Fin 512, masked1 V c (pb t) (row128 (pi t) ii) j p) + V c main_v3 (ix3 (pb t) (row128 (pi t) ii) p) := by
  refine (outs11_closed V c r0 r1 r2 r3 r4 r5 r6 r7 r8 r9 t.val t.isLt ii p).trans ?_
  rw [ht, add_comm]
  refine congrArg (· + V c main_v3 (ix3 (pb t) (row128 (pi t) ii) p)) ?_
  refine (Cert.Lib.BlockSum.sum_range_dite 8 (fun j' => tileSum V c (pb t) (row128 (pi t) ii) j' p)).trans ?_
  exact (Cert.Lib.BlockSum.sum_eq_sum_blocks 8 64 rfl (fun j => masked1 V c (pb t) (row128 (pi t) ii) j p)).symm

end Reads

end Cert.KernelIdeal.HandValue

end
-- ==== Proof.KernelFinal.lean ====
/-
  The kernel program's results are the specification's.

  The first region writes, batch entry by batch entry, the node block times the transposed weight: the projected nodes.
  The second region writes at every point the projected edge tile — edge tile times transposed edge weight plus bias,
  read at global rows — and carries the new node features' row tile through the eight neighbour tiles: it ends at
  the projected node plus the masked messages summed over all 512 neighbours, the message weight's three blocks being
  the column blocks 0, 1, 2 of the weight. Both are the specification's arrays index by index.
-/
import proofs.«115202_j74612171866795_1_alg».proof.Proof.Contents
import proofs.«115202_j74612171866795_1_alg».proof.Proof.Blocks
import proofs.«115202_j74612171866795_1_alg».proof.Proof.Accum
import proofs.«115202_j74612171866795_1_alg».proof.Proof.KernelValue
import proofs.«115202_j74612171866795_1_alg».proof.Proof.Frames
import proofs.«115202_j74612171866795_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (m : (ℓ : Loc nD τ sig) → Buf (Elt Ideal) ℓ) (c : Dev nD)

/-- The first region leaves the projected nodes. -/
theorem xp_final : (dat0 (Hand.V1 m) c).arrAt 2 cfg0.N = Cert.Spec.XP (m ((c : Thread nD τ).loc main_arg0)) (m ((c : Thread nD τ).loc main_arg3)) :=
  arr0_2 (Hand.V1 m) c _ fun t n o => by
    rw [after0_2]
    refine (out0_apply _ _ n o).trans ?_
    show _ = Cert.Spec.xp _ _ (pt0 t) n o
    unfold Cert.Spec.xp
    refine Finset.sum_congr rfl fun f _ => ?_
    rw [iblk0_0_apply, iblk0_1_apply, V1_arg0, V1_arg3]

/-- What the second region reads as the projected nodes. -/
theorem V2_v3_apply (b : Fin 4) (n : Fin 512) (o : Fin 128) :
    Hand.V2 m c main_v3 (ix3 b n o) = Cert.Spec.xp (m ((c : Thread nD τ).loc main_arg0)) (m ((c : Thread nD τ).loc main_arg3)) b n o := by
  rw [V2_v3, xp_final]; rfl

/-- The second region leaves the projected edges. -/
theorem adjp_final : (dat1 (Hand.V2 m) c).arrAt 10 cfg1.N = Cert.Spec.ADJP (m ((c : Thread nD τ).loc main_arg1)) (m ((c : Thread nD τ).loc main_arg4)) (m ((c : Thread nD τ).loc main_arg5)) :=
  arr1_10 (Hand.V2 m) c _ fun t ii jj o => by
    rw [after1_10]
    refine (out10_apply _ _ _ ii jj o).trans ?_
    show _ = Cert.Spec.adjp _ _ _ (pb t) (row128 (pi t) ii) (row64 (pj t) jj) o
    unfold Cert.Spec.adjp
    rw [iblk1_5_apply, V2_arg5]
    refine congrArg (· + _) (Finset.sum_congr rfl fun e _ => ?_)
    rw [iblk1_0_apply, iblk1_4_apply, V2_arg1, V2_arg4]

/-- The masked message over the second region's entry contents is the specification's. -/
theorem masked1_eq (b : Fin 4) (i j : Fin 512) (p : Fin 128) :
    masked1 (Hand.V2 m) c b i j p = Cert.Spec.masked (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b i j p := by
  unfold masked1 Cert.Spec.masked Cert.Spec.msg Cert.Spec.mi Cert.Spec.mj Cert.Spec.me Cert.Spec.adjp
  dsimp only [xpA, w1A, w2A, w3A, adjA, maskA, weA, beA, bmA]
  refine congrArg₂ (· * ·) (congrArg₂ (· + ·) (congrArg₂ (· + ·) (congrArg₂ (· + ·) ?_ ?_) ?_) ?_) ?_
  · exact Finset.sum_congr rfl fun o _ => congrArg₂ (· * ·) (V2_v3_apply m c b i o) (V2_v0_apply m c p o)
  · exact Finset.sum_congr rfl fun o _ => congrArg₂ (· * ·) (V2_v3_apply m c b j o) (V2_v1_apply m c p o)
  · exact Finset.sum_congr rfl fun o _ => congrArg₂ (· * ·)
      (congrArg₂ (· + ·) (Finset.sum_congr rfl fun e _ => congrArg₂ (· * ·) (congrFun (V2_arg1 m c) _) (congrFun (V2_arg4 m c) _))
        (congrFun (V2_arg5 m c) _)) (V2_v2_apply m c p o)
  · exact congrFun (V2_arg7 m c) _
  · exact congrFun (V2_arg2 m c) _

/-- The second region leaves the new node features. -/
theorem newx_final : (dat1 (Hand.V2 m) c).arrAt 11 cfg1.N = Cert.Spec.NEWX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  arr1_11 (Hand.V2 m) c _ fun t ht ii p => by
    rw [after1_11, outs11_last (Hand.V2 m) c (iblk1_0_apply (Hand.V2 m) c) (iblk1_1_apply (Hand.V2 m) c) (iblk1_2_apply (Hand.V2 m) c) (iblk1_3_apply (Hand.V2 m) c)
      (iblk1_4_apply (Hand.V2 m) c) (iblk1_5_apply (Hand.V2 m) c) (iblk1_6_apply (Hand.V2 m) c) (iblk1_7_apply (Hand.V2 m) c) (iblk1_8_apply (Hand.V2 m) c)
      (iblk1_9_apply (Hand.V2 m) c) t ht ii p]
    show _ = Cert.Spec.newx _ _ _ _ _ _ _ _ (pb t) (row128 (pi t) ii) p
    unfold Cert.Spec.newx
    rw [V2_v3_apply]
    exact congrArg (· + _) (Finset.sum_congr rfl fun j _ => masked1_eq m c _ _ j p)

/-- The kernel program's run with its two computed results named: the specification's arrays of the arguments. -/
theorem run_spec (ρ : Dev nD → PrngReg) :
    θ_run defs (onTc (τ := τ) (main (F := Ideal))) ⟨m, fun _ => 0, ρ⟩ (fun r => ∀ c : Dev nD,
      r.2.mem ((c.tc : Thread nD τ).loc main_v4_1) = Cert.Spec.NEWX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v4_0) = Cert.Spec.ADJP (m ((c : Thread nD τ).loc main_arg1)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c _ (mem_uc main_v4_1 (by decide))).trans (W3_v4_1 m c)).trans (newx_final m c),
     ((h c _ (mem_uc main_v4_0 (by decide))).trans (W3_v4_0 m c)).trans (adjp_final m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩)
    (run_main m ρ)

end Cert.KernelIdeal.HandValue

end
-- ==== Proof.RefValue.lean ====
/-
  The reference program's run, with its two computed results identified with the specification.

  The reference computes, on the host, the projected nodes `xp = x · Wnᵀ`, the projected edges `adjp = adj · Weᵀ + be`,
  the three terms of the message from the three square blocks of the message weight (columns 0‥127, 128‥255, 256‥383),
  their sum with the bias, the product with the mask broadcast along the feature axis, the sum over the neighbours
  starting from zero, and the final sum with the projected nodes. Read index by index, every stage is the
  specification's function of the same name at the same coordinates: a contraction is the sum over its one contracted
  coordinate, a broadcast or a slice reads its operand at the corresponding coordinates, and the zero the neighbour sum
  starts from is the extended reals' zero.
-/
import proofs.«115202_j74612171866795_1_alg».proof.Proof.Spec
import proofs.«115202_j74612171866795_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## The coordinates each stage reads its operands at -/

theorem lidx_v0 (b : Fin 4) (n : Fin 512) (o k : Fin 128) : lidx_main_v0 (ix3 b n o) k = ix3 b n k := by
  funext a; match a with | ⟨0, _⟩ => rfl | ⟨1, _⟩ => rfl | ⟨2, _⟩ => rfl
theorem ridx_v0 (b : Fin 4) (n : Fin 512) (o k : Fin 128) : ridx_main_v0 (ix3 b n o) k = ix2 o k := by
  funext a; match a with | ⟨0, _⟩ => rfl | ⟨1, _⟩ => rfl

theorem lidx_v1 (b : Fin 4) (i j : Fin 512) (o : Fin 128) (k : Fin 64) : lidx_main_v1 (ix4 b i j o) k = ix4 b i j k := by
  funext a; match a with | ⟨0, _⟩ => rfl | ⟨1, _⟩ => rfl | ⟨2, _⟩ => rfl | ⟨3, _⟩ => rfl
theorem ridx_v1 (b : Fin 4) (i j : Fin 512) (o : Fin 128) (k : Fin 64) : ridx_main_v1 (ix4 b i j o) k = ix2 o k := by
  funext a; match a with | ⟨0, _⟩ => rfl | ⟨1, _⟩ => rfl
theorem idx_v3_v2 (b : Fin 4) (i j : Fin 512) (o : Fin 128) : idx_main_v2 (idx_main_v3 (ix4 b i j o)) = ix1 o := by
  funext a; match a with | ⟨0, _⟩ => rfl

theorem lidx_v8 (b : Fin 4) (n : Fin 512) (p k : Fin 128) : lidx_main_v8 (ix3 b n p) k = ix3 b n k := by
  funext a; match a with | ⟨0, _⟩ => rfl | ⟨1, _⟩ => rfl | ⟨2, _⟩ => rfl
theorem ridx_v8_v5 (b : Fin 4) (n : Fin 512) (p k : Fin 128) :
    idx_main_v5 (ridx_main_v8 (ix3 b n p) k) = ix2 p (Cert.Spec.col 0 k) := by
  funext a; match a with
    | ⟨0, _⟩ => rfl
    | ⟨1, _⟩ => exact Fin.ext (by show k.val = 128 * 0 + k.val; omega)

theorem lidx_v9 (b : Fin 4) (n : Fin 512) (p k : Fin 128) : lidx_main_v9 (ix3 b n p) k = ix3 b n k := by
  funext a; match a with | ⟨0, _⟩ => rfl | ⟨1, _⟩ => rfl | ⟨2, _⟩ => rfl
theorem ridx_v9_v6 (b : Fin 4) (n : Fin 512) (p k : Fin 128) :
    idx_main_v6 (ridx_main_v9 (ix3 b n p) k) = ix2 p (Cert.Spec.col 1 k) := by
  funext a; match a with
    | ⟨0, _⟩ => rfl
    | ⟨1, _⟩ => exact Fin.ext (by show 128 + k.val = 128 * 1 + k.val; omega)

theorem lidx_v10 (b : Fin 4) (i j : Fin 512) (p k : Fin 128) : lidx_main_v10 (ix4 b i j p) k = ix4 b i j k := by
  funext a; match a with | ⟨0, _⟩ => rfl | ⟨1, _⟩ => rfl | ⟨2, _⟩ => rfl | ⟨3, _⟩ => rfl
theorem ridx_v10_v7 (b : Fin 4) (i j : Fin 512) (p k : Fin 128) :
    idx_main_v7 (ridx_main_v10 (ix4 b i j p) k) = ix2 p (Cert.Spec.col 2 k) := by
  funext a; match a with
    | ⟨0, _⟩ => rfl
    | ⟨1, _⟩ => exact Fin.ext (by show 256 + k.val = 128 * 2 + k.val; omega)

theorem idx_v13_v11 (b : Fin 4) (i j : Fin 512) (p : Fin 128) : idx_main_v11 (idx_main_v13 (ix4 b i j p)) = ix3 b i p := by
  funext a; match a with | ⟨0, _⟩ => rfl | ⟨1, _⟩ => rfl | ⟨2, _⟩ => rfl
theorem idx_v14_v12 (b : Fin 4) (i j : Fin 512) (p : Fin 128) : idx_main_v12 (idx_main_v14 (ix4 b i j p)) = ix3 b j p := by
  funext a; match a with | ⟨0, _⟩ => rfl | ⟨1, _⟩ => rfl | ⟨2, _⟩ => rfl
theorem idx_v18_v17 (b : Fin 4) (i j : Fin 512) (p : Fin 128) : idx_main_v17 (idx_main_v18 (ix4 b i j p)) = ix1 p := by
  funext a; match a with | ⟨0, _⟩ => rfl
theorem idx_v20 (b : Fin 4) (i j : Fin 512) (p : Fin 128) : idx_main_v20 (ix4 b i j p) = ix4 b i j (0 : Fin 1) := by
  funext a; match a with | ⟨0, _⟩ => rfl | ⟨1, _⟩ => rfl | ⟨2, _⟩ => rfl | ⟨3, _⟩ => rfl
theorem idx_v22 (b : Fin 4) (i : Fin 512) (p : Fin 128) (j : Fin 512) : idx_main_v22 (ix3 b i p) j = ix4 b i j p := by
  funext a; match a with | ⟨0, _⟩ => rfl | ⟨1, _⟩ => rfl | ⟨2, _⟩ => rfl | ⟨3, _⟩ => rfl

/-! ## The stages, at coordinates -/

variable (x0 : (⟨S4x512x128, .f32⟩ : BufTy).Contents (Elt Ideal)) (x1 : (⟨S4x512x512x64, .f32⟩ : BufTy).Contents (Elt Ideal)) (x2 : (⟨S4x512x512x1, .f32⟩ : BufTy).Contents (Elt Ideal))
  (x3 : (⟨S128x128, .f32⟩ : BufTy).Contents (Elt Ideal)) (x4 : (⟨S128x64, .f32⟩ : BufTy).Contents (Elt Ideal)) (x5 : (⟨S128, .f32⟩ : BufTy).Contents (Elt Ideal))
  (x6 : (⟨S128x384, .f32⟩ : BufTy).Contents (Elt Ideal)) (x7 : (⟨S128, .f32⟩ : BufTy).Contents (Elt Ideal))

/-- The first contraction is the projected nodes. -/
theorem xp_at (b : Fin 4) (n : Fin 512) (o : Fin 128) :
    val_main_v0 (F := Ideal) x0 x3 (ix3 b n o) = Cert.Spec.xp x0 x3 b n o := by
  rw [val_main_v0_apply]
  unfold Cert.Spec.xp
  refine Finset.sum_congr rfl fun k _ => ?_
  rw [lidx_v0, ridx_v0]

/-- The second contraction plus the broadcast bias is the projected edges. -/
theorem adjp_at (b : Fin 4) (i j : Fin 512) (o : Fin 128) :
    val_main_v4 (F := Ideal) x1 x4 x5 (ix4 b i j o) = Cert.Spec.adjp x1 x4 x5 b i j o := by
  rw [val_main_v4_apply, val_main_v1_apply, val_main_v3_apply, val_main_v2_apply, idx_v3_v2, Ideal.addf_def]
  unfold Cert.Spec.adjp
  refine congrArg (· + _) (Finset.sum_congr rfl fun k _ => ?_)
  rw [lidx_v1, ridx_v1]

/-- The receiving node's term: the projected nodes contracted with the first block of the message weight. -/
theorem mi_at (b : Fin 4) (n : Fin 512) (p : Fin 128) :
    val_main_v8 (F := Ideal) x0 x3 x6 (ix3 b n p) = Cert.Spec.mi x0 x3 x6 b n p := by
  rw [val_main_v8_apply]
  unfold Cert.Spec.mi
  refine Finset.sum_congr rfl fun k _ => ?_
  rw [lidx_v8, xp_at, val_main_v5_apply, ridx_v8_v5]

/-- The neighbour's term: the projected nodes contracted with the second block. -/
theorem mj_at (b : Fin 4) (n : Fin 512) (p : Fin 128) :
    val_main_v9 (F := Ideal) x0 x3 x6 (ix3 b n p) = Cert.Spec.mj x0 x3 x6 b n p := by
  rw [val_main_v9_apply]
  unfold Cert.Spec.mj
  refine Finset.sum_congr rfl fun k _ => ?_
  rw [lidx_v9, xp_at, val_main_v6_apply, ridx_v9_v6]

/-- The edge's term: the projected edges contracted with the third block. -/
theorem me_at (b : Fin 4) (i j : Fin 512) (p : Fin 128) :
    val_main_v10 (F := Ideal) x1 x4 x5 x6 (ix4 b i j p) = Cert.Spec.me x1 x4 x5 x6 b i j p := by
  rw [val_main_v10_apply]
  unfold Cert.Spec.me
  refine Finset.sum_congr rfl fun k _ => ?_
  rw [lidx_v10, adjp_at, val_main_v7_apply, ridx_v10_v7]

/-- The message: the two node terms broadcast along each other's axis, plus the edge term, plus the bias. -/
theorem msg_at (b : Fin 4) (i j : Fin 512) (p : Fin 128) :
    val_main_v19 (F := Ideal) x0 x1 x3 x4 x5 x6 x7 (ix4 b i j p) = Cert.Spec.msg x0 x1 x3 x4 x5 x6 x7 b i j p := by
  rw [val_main_v19_apply, val_main_v16_apply, val_main_v15_apply, val_main_v13_apply, val_main_v11_apply, idx_v13_v11,
    val_main_v14_apply, val_main_v12_apply, idx_v14_v12, val_main_v18_apply, val_main_v17_apply, idx_v18_v17,
    mi_at, mj_at, me_at]
  rfl

/-- The masked message: the message times the mask, which does not depend on the feature. -/
theorem masked_at (b : Fin 4) (i j : Fin 512) (p : Fin 128) :
    val_main_v21 (F := Ideal) x0 x1 x2 x3 x4 x5 x6 x7 (ix4 b i j p) = Cert.Spec.masked x0 x1 x2 x3 x4 x5 x6 x7 b i j p := by
  rw [val_main_v21_apply, val_main_v20_apply, idx_v20, msg_at]
  rfl

/-- The sum over the neighbours, which starts from zero. -/
theorem nsum_at (b : Fin 4) (i : Fin 512) (p : Fin 128) :
    val_main_v22 (F := Ideal) x0 x1 x2 x3 x4 x5 x6 x7 (ix3 b i p)
      = ∑ j : Fin 512, Cert.Spec.masked x0 x1 x2 x3 x4 x5 x6 x7 b i j p := by
  rw [val_main_v22_apply, val_main_cst_apply, Ideal.ofBits_def, Ideal.ofBits_zero_f32, zero_add]
  refine Finset.sum_congr rfl fun j _ => ?_
  rw [idx_v22, masked_at]

/-- The new node features. -/
theorem newx_at (b : Fin 4) (i : Fin 512) (p : Fin 128) :
    val_main_v23 (F := Ideal) x0 x1 x2 x3 x4 x5 x6 x7 (ix3 b i p) = Cert.Spec.newx x0 x1 x2 x3 x4 x5 x6 x7 b i p := by
  rw [val_main_v23_apply, nsum_at, xp_at]
  rfl

/-! ## The two computed results as arrays -/

/-- The reference's first result is the specification's new node features. -/
theorem ref_newx : val_main_v23 (F := Ideal) x0 x1 x2 x3 x4 x5 x6 x7 = Cert.Spec.NEWX x0 x1 x2 x3 x4 x5 x6 x7 := by
  funext y
  obtain ⟨b, i, p, rfl⟩ : ∃ (b : Fin 4) (i : Fin 512) (p : Fin 128), y = ix3 b i p := ⟨y 0, y 1, y 2, eq_ix3 y⟩
  exact newx_at x0 x1 x2 x3 x4 x5 x6 x7 b i p

/-- The reference's second result is the specification's projected edges. -/
theorem ref_adjp : val_main_v4 (F := Ideal) x1 x4 x5 = Cert.Spec.ADJP x1 x4 x5 := by
  funext y
  obtain ⟨b, i, j, o, rfl⟩ : ∃ (b : Fin 4) (i j : Fin 512) (o : Fin 128), y = ix4 b i j o := ⟨y 0, y 1, y 2, y 3, eq_ix4 y⟩
  exact adjp_at x1 x4 x5 b i j o

/-! ## The run -/

/-- From any memory with zero counters, every weakly fair execution of the reference terminates with its first result
    at the specification's new node features of the argument arrays, its second at the specification's projected
    edges, and the eight argument arrays unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread nD τ).loc main_v23) = Cert.Spec.NEWX (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))
      ∧ r.2.mem ((c.tc : Thread nD τ).loc main_v4) = Cert.Spec.ADJP (m' ((c.tc : Thread nD τ).loc main_arg1)) (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run Cert.ReferenceIdeal.defs _ _).mono (fun _ h c =>
      ⟨(h c).1.trans ((val_main_v23_eq _ _ _ _ _ _ _ _).trans (ref_newx _ _ _ _ _ _ _ _)),
       (h c).2.1.trans ((val_main_v4_eq _ _ _).trans (ref_adjp _ _ _)),
       (h c).2.2.2⟩)
    (Cert.ReferenceIdeal.Value.run (F := Ideal) m' ρ')

end Cert.ReferenceIdeal.RefValue

end
-- ==== Proof.lean ====
/-
  The certificate of a graph layer's kernel against its reference.

  Both programs compute, from node features x, edge features adj, a mask and five weight arrays: the projected nodes
  xp = x·Wnᵀ; the projected edges adjp = adj·Weᵀ + be; for every pair (i, j) the message
  (xp_i·W1ᵀ + xp_j·W2ᵀ) + adjp_ij·W3ᵀ + bm with W1, W2, W3 the three column blocks of the message weight; and the new
  node features: the masked messages summed over the neighbours j, plus xp. The kernel does so in two regions — the
  node projection batch entry by batch entry, then, tile by tile over (batch, 128 rows, 64 neighbours), the edge
  projection and the aggregation, the latter carried along the neighbour axis from xp's row tile through the eight
  neighbour tiles — while the reference uses whole-array products, broadcasts and one sum over the neighbour axis. At
  the ideal instance (floats extended reals, operations exact, format changes the identity) the two agree by nothing
  more than regrouping a sum of 512 terms into 8 blocks of 64 and the commutativity and associativity of addition, laws
  that hold of every extended real: the precondition is not used.

  Frames: each kernel program's run, item by item, leaves every argument as launched; the reference's is its run.
  The idealization rewrote nothing, so there is nothing to preserve. The value claim: both runs end with the
  specification's arrays of their arguments (Spec.lean), and the arguments agree.
-/
import proofs.«115202_j74612171866795_1_alg».proof.Defs
import proofs.«115202_j74612171866795_1_alg».proof.Proof.Gen.Kernel
import proofs.«115202_j74612171866795_1_alg».proof.Proof.Gen.KernelIdeal
import proofs.«115202_j74612171866795_1_alg».proof.Proof.Gen.ReferenceIdeal
import proofs.«115202_j74612171866795_1_alg».proof.Proof.Gen.ReferenceIdeal.Run
import proofs.«115202_j74612171866795_1_alg».proof.Proof.Gen.ReferenceIdeal.Read
import proofs.«115202_j74612171866795_1_alg».proof.Proof.Gen.Pre_finite_inputs
import proofs.«115202_j74612171866795_1_alg».proof.Proof.WFrames
import proofs.«115202_j74612171866795_1_alg».proof.Proof.Frames
import proofs.«115202_j74612171866795_1_alg».proof.Proof.KernelFinal
import proofs.«115202_j74612171866795_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.RefValue.run_spec m ρ)

/-- The idealization is the program's own text read at the ideal instance. -/
theorem preserves : Cert.preserves_Kernel_KernelIdeal := trivial

/-- From memories agreeing on the arguments both programs end with the specification's new node features and projected
    edges of those arguments, and with the mask argument itself. -/
theorem algebraic : Cert.algebraic_KernelIdeal_ReferenceIdeal := by
  intro m ρ m' ρ' _ hagree
  refine ⟨fun c => Cert.Spec.NEWX (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.ADJP (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => m ((c.tc : Thread Cert.KernelIdeal.nD Cert.KernelIdeal.τ).loc Cert.KernelIdeal.main_arg2), ?_, ?_⟩
  · exact (θ_run Cert.KernelIdeal.defs _ _).mono (fun _ h c => ⟨(h c).1, (h c).2.1, (h c).2.2.2.2.1, (h c).2.2⟩)
      (Cert.KernelIdeal.HandValue.run_spec m ρ)
  · refine (θ_run Cert.ReferenceIdeal.defs _ _).mono (fun _ h c => ⟨?_, ?_, ?_, (h c).2.2⟩)
      (Cert.ReferenceIdeal.RefValue.run_spec m' ρ')
    · rw [(h c).1, (hagree c).1, (hagree c).2.1, (hagree c).2.2.1, (hagree c).2.2.2.1, (hagree c).2.2.2.2.1,
        (hagree c).2.2.2.2.2.1, (hagree c).2.2.2.2.2.2.1, (hagree c).2.2.2.2.2.2.2]
    · rw [(h c).2.1, (hagree c).2.1, (hagree c).2.2.2.2.1, (hagree c).2.2.2.2.2.1]
    · exact ((h c).2.2.2.2.1).trans (hagree c).2.2.1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
